-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x64 .f32) (main_arg11 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S1000000x64 : Shape := ⟨2, ![1000000, 64]⟩
abbrev S1x64 : Shape := ⟨2, ![1, 64]⟩
abbrev S10000x1 : Shape := ⟨2, ![10000, 1]⟩

abbrev nBuf : Space → Nat
  | .hbm => 146
  | .vmem => 54
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000, .f32⟩
  | 27 => ⟨S100000x1, .f32⟩
  | 28 => ⟨S100000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000, .f32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i32⟩
  | 44 => ⟨S1000000, .i32⟩
  | 45 => ⟨S1000000x1, .i32⟩
  | 46 => ⟨S1000000, .f32⟩
  | 47 => ⟨S1000000, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S1000000x1, .f32⟩
  | 58 => ⟨S1000000x64, .f32⟩
  | 59 => ⟨S1000000x64, .f32⟩
  | 60 => ⟨S_, .f32⟩
  | 61 => ⟨S100000x64, .f32⟩
  | 62 => ⟨S1000000x1, .i32⟩
  | 63 => ⟨S100000x64, .f32⟩
  | 64 => ⟨S1x64, .f32⟩
  | 65 => ⟨S100000x64, .f32⟩
  | 66 => ⟨S100000x64, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000, .f32⟩
  | 85 => ⟨S1000000, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S1000000x1, .f32⟩
  | 96 => ⟨S1000000x64, .f32⟩
  | 97 => ⟨S1000000x64, .f32⟩
  | 98 => ⟨S_, .f32⟩
  | 99 => ⟨S100000x64, .f32⟩
  | 100 => ⟨S1000000x1, .i32⟩
  | 101 => ⟨S100000x64, .f32⟩
  | 102 => ⟨S1x64, .f32⟩
  | 103 => ⟨S100000x64, .f32⟩
  | 104 => ⟨S100000x64, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000, .f32⟩
  | 114 => ⟨S_, .i32⟩
  | 115 => ⟨S1000000, .i32⟩
  | 116 => ⟨S1000000, .i1⟩
  | 117 => ⟨S_, .i32⟩
  | 118 => ⟨S1000000, .i32⟩
  | 119 => ⟨S1000000, .i32⟩
  | 120 => ⟨S1000000, .i32⟩
  | 121 => ⟨S1000000x1, .i32⟩
  | 122 => ⟨S1000000, .f32⟩
  | 123 => ⟨S1000000, .f32⟩
  | 124 => ⟨S_, .i32⟩
  | 125 => ⟨S1000000, .i32⟩
  | 126 => ⟨S1000000, .i1⟩
  | 127 => ⟨S_, .i32⟩
  | _ => ⟨S100000x64, .f32⟩

abbrev hbmTy0_1 (i : Nat) : BufTy := match i % 128 with
  | 0 => ⟨S1000000, .i32⟩
  | 1 => ⟨S1000000, .i32⟩
  | 2 => ⟨S1000000, .i32⟩
  | 3 => ⟨S1000000x1, .i32⟩
  | 4 => ⟨S1000000x64, .f32⟩
  | 5 => ⟨S1000000x1, .f32⟩
  | 6 => ⟨S1000000x64, .f32⟩
  | 7 => ⟨S1000000x64, .f32⟩
  | 8 => ⟨S_, .f32⟩
  | 9 => ⟨S100000x64, .f32⟩
  | 10 => ⟨S1000000x1, .i32⟩
  | 11 => ⟨S100000x64, .f32⟩
  | 12 => ⟨S1x64, .f32⟩
  | 13 => ⟨S100000x64, .f32⟩
  | 14 => ⟨S1x64, .f32⟩
  | 15 => ⟨S100000x64, .f32⟩
  | 16 => ⟨S1x64, .f32⟩
  | 17 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_c_18 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_c_20 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  broadcasts_S10000x1_S10000x64 : S10000x1.Broadcasts S10000x64
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v105) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v107) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v109) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1000000x64 : Shape := ⟨2, ![1000000, 64]⟩
abbrev S100000x1 : Shape := ⟨2, ![100000, 1]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S100000x64, .f32⟩
  | 1 => ⟨S2x1000000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S1x1000000, .i32⟩
  | 13 => ⟨S1000000, .i32⟩
  | 14 => ⟨S1x1000000, .i32⟩
  | 15 => ⟨S1000000, .i32⟩
  | 16 => ⟨S_, .f32⟩
  | 17 => ⟨S1000000, .f32⟩
  | 18 => ⟨S_, .f32⟩
  | 19 => ⟨S100000, .f32⟩
  | 20 => ⟨S1000000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S100000x64, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000, .f32⟩
  | 45 => ⟨S1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x1, .f32⟩
  | 56 => ⟨S1000000x64, .f32⟩
  | 57 => ⟨S1000000x64, .f32⟩
  | 58 => ⟨S_, .f32⟩
  | 59 => ⟨S100000x64, .f32⟩
  | 60 => ⟨S1000000x1, .i32⟩
  | 61 => ⟨S100000x64, .f32⟩
  | 62 => ⟨S100000, .f32⟩
  | 63 => ⟨S100000x1, .f32⟩
  | 64 => ⟨S100000x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000, .f32⟩
  | 92 => ⟨S1000000, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S1000000x1, .f32⟩
  | 103 => ⟨S1000000x64, .f32⟩
  | 104 => ⟨S1000000x64, .f32⟩
  | 105 => ⟨S_, .f32⟩
  | 106 => ⟨S100000x64, .f32⟩
  | 107 => ⟨S1000000x1, .i32⟩
  | 108 => ⟨S100000x64, .f32⟩
  | 109 => ⟨S100000, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x64, .f32⟩

abbrev hbmTy0_1 (i : Nat) : BufTy := match i % 128 with
  | 0 => ⟨S1000000x1, .i32⟩
  | 1 => ⟨S1000000, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000, .f32⟩
  | 11 => ⟨S1000000, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x64, .f32⟩
  | 21 => ⟨S1000000x1, .f32⟩
  | 22 => ⟨S1000000x64, .f32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S100000, .f32⟩
  | 29 => ⟨S100000x1, .f32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_12 : Ref sig .tc := ⟨.hbm, 93, rfl⟩
abbrev main_v65 : Ref sig .tc := ⟨.hbm, 94, rfl⟩
abbrev main_v66 : Ref sig .tc := ⟨.hbm, 95, rfl⟩
abbrev main_c_13 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_v87 : Ref sig .tc := ⟨.hbm, 120, rfl⟩
abbrev main_c_15 : Ref sig .tc := ⟨.hbm, 121, rfl⟩
abbrev main_v88 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_17 : Ref sig .tc := ⟨.hbm, 130, rfl⟩
abbrev main_v95 : Ref sig .tc := ⟨.hbm, 131, rfl⟩
abbrev main_v96 : Ref sig .tc := ⟨.hbm, 132, rfl⟩
abbrev main_c_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_19 : Ref sig .tc := ⟨.hbm, 140, rfl⟩
abbrev main_v103 : Ref sig .tc := ⟨.hbm, 141, rfl⟩
abbrev main_v104 : Ref sig .tc := ⟨.hbm, 142, rfl⟩
abbrev main_c_20 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_call2_cst : Ref sig .tc := ⟨.hbm, 164, rfl⟩
abbrev main_call2_v0 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call3_cst : Ref sig .tc := ⟨.hbm, 171, rfl⟩
abbrev main_call3_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LastBoundary.lean ====
/-
  The idealized kernel's run with its last boundary named.  The program is fourteen segments: a stretch of host
  operations, then a kernel region, and so on; the buffer contents at each boundary are a fold from the launch memory
  (a stretch applies its operations, a region replaces its output array by what its grid points wrote back).  The
  run below says that every weakly fair execution terminates with EVERY unscoped buffer of a core holding the last
  boundary's contents; the frame claim keeps of this only the argument arrays, a value claim also reads the result.
-/
import proofs.«175292_j50723563765964_1_alg».proof.Proof.Gen.KernelIdeal.Frame

set_option maxRecDepth 16384

noncomputable section

namespace Cert.KernelIdeal.LastBoundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state each unscoped
    buffer of each core holds the contents of the last boundary of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

end Cert.KernelIdeal.LastBoundary

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibGcnBody.lean ====
/-
  The four kernel bodies of the graph network, read at one entry `(p, q)` of the output block, at the ideal values
  (a change of float format is the identity, a product accumulated from zero is the plain sum):

    linear          (x · w)(p, q)                         = Σ_k x(p, k) · w(k, q)
    combine         max (agg(p, q) + h(p, q) · d(p, 0) + bias(0, q)) 0
    linear + bias   Σ_k x(p, k) · w(k, q) + bias(0, q)          (and its maximum with 0)

  `d` is a column `[a, 1]` spread along the rows, `bias` a row `[1, b]` spread along the columns; the identity
  shape casts the bodies carry drop out.
-/
import Idealize.ShloMosaic.Lib.ValueIdx
import Idealize.ShloMosaic.Lib.ValueLayout
import Idealize.ShloMosaic.Lib.Pipeline.Value
import Idealize.ShloMosaic.PureOps.Ideal.Laws
import proofs.«175292_j50723563765964_1_alg».proof.Proof.LibMatmulIx
import proofs.«175292_j50723563765964_1_alg».proof.Proof.LibLayout

noncomputable section

namespace Cert.Gcn.Body

open Idealize.ShloMosaic Idealize.ShloMosaic.ValueIdx

variable {a K b : ℕ}

/-- A one-row array `[1, b]` spread over `a` rows reads, at `(p, q)`, the row's entry `q`. -/
theorem rowSpread_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The linear body: the product of the operands cut to bf16, accumulated from zero, is the plain sum of products. -/
theorem linear_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (p : Fin a) (q : Fin b) :
    matmul D none (truncf .bf16 x hlt) (truncf .bf16 w hlt) (constant (F := Ideal) ⟨2, ![a, b]⟩ .f32 0x00000000#32) (ix2 p q)
      = ∑ k : Fin K, x (ix2 p k) * w (ix2 k q) :=
  MatmulIx.matmul_zero_ix2 D hr hs hl0 hl1 hr0 hr1 none (truncf .bf16 x hlt) (truncf .bf16 w hlt) p q

/-- The linear body whose input block first passes an identity shape cast. -/
theorem linearCast_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32)
    (c0 : (⟨2, ![a, K]⟩ : Shape).ShapeCasts ⟨2, ![a, K]⟩) (p : Fin a) (q : Fin b) :
    matmul D none (truncf .bf16 (shapeCast ⟨2, ![a, K]⟩ x c0) hlt) (truncf .bf16 w hlt)
        (constant (F := Ideal) ⟨2, ![a, b]⟩ .f32 0x00000000#32) (ix2 p q)
      = ∑ k : Fin K, x (ix2 p k) * w (ix2 k q) := by
  rw [shapeCast_self x c0]
  exact linear_apply D hr hs hl0 hl1 hr0 hr1 hlt x w p q

/-- The combine body: the aggregate plus the node's own row scaled by its column entry plus the bias row, cut below at 0. -/
theorem combine_apply (agg h : FVec Ideal ⟨2, ![a, b]⟩ .f32) (d : FVec Ideal ⟨2, ![a, 1]⟩ .f32) (bias : FVec Ideal ⟨2, ![1, b]⟩ .f32)
    (c0 : (⟨2, ![a, b]⟩ : Shape).ShapeCasts ⟨2, ![a, b]⟩) (c1 : (⟨2, ![a, 1]⟩ : Shape).ShapeCasts ⟨2, ![a, 1]⟩)
    (c2 : (⟨2, ![1, b]⟩ : Shape).ShapeCasts ⟨2, ![1, b]⟩)
    (hb : (⟨2, ![1, b]⟩ : Shape).Broadcasts ⟨2, ![a, b]⟩) (hd : (⟨2, ![a, 1]⟩ : Shape).Broadcasts ⟨2, ![a, b]⟩)
    (p : Fin a) (q : Fin b) :
    maximumf (addf (addf (shapeCast ⟨2, ![a, b]⟩ agg c0)
        (mulf (shapeCast ⟨2, ![a, b]⟩ h c0) (broadcastTo ⟨2, ![a, b]⟩ (shapeCast ⟨2, ![a, 1]⟩ d c1) hd)))
        (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max (agg (ix2 p q) + h (ix2 p q) * d (ix2 p (0 : Fin 1)) + bias (ix2 (0 : Fin 1) q)) (Ideal.ofBits .f32 0x00000000#32) := by
  rw [shapeCast_self agg c0, shapeCast_self h c0, shapeCast_self d c1, shapeCast_self bias c2, shapeCast_self bias c2]
  rw [maximumf_apply, addf_apply, addf_apply, mulf_apply, broadcast_apply, rowSpread_apply,
    Cert.Attn.Layout.broadcastTo_a1_ab_apply]
  rfl

/-- The linear body with a bias row added. -/
theorem linearBias_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb) (ix2 p q)
      = (∑ k : Fin K, x (ix2 p k) * w (ix2 k q)) + bias (ix2 (0 : Fin 1) q) := by
  rw [shapeCast_self x c0, shapeCast_self bias c2, shapeCast_self bias c2]
  rw [addf_apply, rowSpread_apply, linear_apply D hr hs hl0 hl1 hr0 hr1 hlt x w p q]

/-- The same, cut below at 0. -/
theorem linearBiasRelu_apply (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hlt : FTy.bits .bf16 < FTy.bits .f32)
    (x : FVec Ideal ⟨2, ![a, K]⟩ .f32) (w : FVec Ideal ⟨2, ![K, b]⟩ .f32) (bias : FVec Ideal ⟨2, ![1, b]⟩ .f32)
    (c0 : (⟨2, ![a, K]⟩ : Shape).ShapeCasts ⟨2, ![a, K]⟩) (c2 : (⟨2, ![1, b]⟩ : Shape).ShapeCasts ⟨2, ![1, b]⟩)
    (hb : (⟨2, ![1, b]⟩ : Shape).Broadcasts ⟨2, ![a, b]⟩) (p : Fin a) (q : Fin b) :
    maximumf (addf (matmul D none (truncf .bf16 (shapeCast ⟨2, ![a, K]⟩ x c0) hlt) (truncf .bf16 w hlt)
        (constant (F := Ideal) ⟨2, ![a, b]⟩ .f32 0x00000000#32))
      (broadcastTo ⟨2, ![a, b]⟩ (shapeCast ⟨2, ![1, b]⟩ (shapeCast ⟨2, ![1, b]⟩ bias c2) c2) hb))
      (broadcast ⟨2, ![a, b]⟩ (Scalar.ofBits (F := Ideal) .f32 0x00000000#32)) (ix2 p q)
      = max ((∑ k : Fin K, x (ix2 p k) * w (ix2 k q)) + bias (ix2 (0 : Fin 1) q)) (Ideal.ofBits .f32 0x00000000#32) := by
  rw [maximumf_apply, broadcast_apply, linearBias_apply D hr hs hl0 hl1 hr0 hr1 hlt x w bias c0 c2 hb p q]
  rfl

/-! ## The bodies as whole-array functions -/

/-- The combine stage over whole arrays: at row `r`, column `q`, the aggregate plus the node's own row scaled by the
    node's entry of the column `d`, plus the bias row, cut below at 0. -/
def combined (agg h : (⟨2, ![a, b]⟩ : Shape).Idx → EReal) (d : (⟨2, ![a, 1]⟩ : Shape).Idx → EReal)
    (bias : (⟨2, ![1, b]⟩ : Shape).Idx → EReal) : (⟨2, ![a, b]⟩ : Shape).Idx → EReal :=
  fun i => max (agg i + h i * d (ix2 (⟨(i 0).val, (i 0).isLt⟩ : Fin a) (0 : Fin 1))
    + bias (ix2 (0 : Fin 1) (⟨(i 1).val, (i 1).isLt⟩ : Fin b))) (Ideal.ofBits .f32 0x00000000#32)

theorem combined_ix2 (agg h : (⟨2, ![a, b]⟩ : Shape).Idx → EReal) (d : (⟨2, ![a, 1]⟩ : Shape).Idx → EReal)
    (bias : (⟨2, ![1, b]⟩ : Shape).Idx → EReal) (p : Fin a) (q : Fin b) :
    combined agg h d bias (ix2 p q)
      = max (agg (ix2 p q) + h (ix2 p q) * d (ix2 p (0 : Fin 1)) + bias (ix2 (0 : Fin 1) q)) (Ideal.ofBits .f32 0x00000000#32) := rfl

/-- A bias row added to every row of an array. -/
def biased (y : (⟨2, ![a, b]⟩ : Shape).Idx → EReal) (bias : (⟨2, ![1, b]⟩ : Shape).Idx → EReal) :
    (⟨2, ![a, b]⟩ : Shape).Idx → EReal :=
  fun i => y i + bias (ix2 (0 : Fin 1) (⟨(i 1).val, (i 1).isLt⟩ : Fin b))

theorem biased_ix2 (y : (⟨2, ![a, b]⟩ : Shape).Idx → EReal) (bias : (⟨2, ![1, b]⟩ : Shape).Idx → EReal) (p : Fin a) (q : Fin b) :
    biased y bias (ix2 p q) = y (ix2 p q) + bias (ix2 (0 : Fin 1) q) := rfl

/-- The same, cut below at 0. -/
def biasedRelu (y : (⟨2, ![a, b]⟩ : Shape).Idx → EReal) (bias : (⟨2, ![1, b]⟩ : Shape).Idx → EReal) :
    (⟨2, ![a, b]⟩ : Shape).Idx → EReal :=
  fun i => max (y i + bias (ix2 (0 : Fin 1) (⟨(i 1).val, (i 1).isLt⟩ : Fin b))) (Ideal.ofBits .f32 0x00000000#32)

theorem biasedRelu_ix2 (y : (⟨2, ![a, b]⟩ : Shape).Idx → EReal) (bias : (⟨2, ![1, b]⟩ : Shape).Idx → EReal) (p : Fin a) (q : Fin b) :
    biasedRelu y bias (ix2 p q) = max (y (ix2 p q) + bias (ix2 (0 : Fin 1) q)) (Ideal.ofBits .f32 0x00000000#32) := rfl

/-- A vector of `b` entries cast to the one row `[1, b]` reads, at `(u, q)`, the operand at `q`. -/
theorem shapeCast_b_1b_apply {α : Type} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.Gcn.Body

end
-- ==== Proof.Region0.lean ====
/-
  Region 0 (the first layer's linear stage).  The output array [100000, 64] is written in ten row blocks of
  10000 rows; block `t` holds, at `(p, q)`, the sum over `k` of the input block's `(p, k)` entry times the weight's
  `(k, q)` entry.  The input block `t` is rows `10000·t … 10000·t + 9999` of the input array and the weight's one
  block is the whole weight, so block `t` of the output is block `t` of ONE whole-array function of the region's
  arrays: the matrix product of the input array with the weight, which is how the host's `dot_general` reads at an
  entry.  The ten blocks tile the array (row `r` lies in block `r / 10000`), so the array ends holding that product.
-/
import proofs.«175292_j50723563765964_1_alg».proof.Proof.Gen.KernelIdeal.Frame
import proofs.«175292_j50723563765964_1_alg».proof.Proof.Gen.ReferenceIdeal.Read
import proofs.«175292_j50723563765964_1_alg».proof.Proof.LibGcnBody

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The kernel's product record contracts the left operand's columns with the right operand's rows -/

theorem kl0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem kl1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem kr0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem kr1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-! ## One entry of a block -/

/-- Entry `(p, q)` of the body's result on blocks `x0`, `x1`, when row `p` of `x0` is row `r` of an array `X` and column
    `q` of `x1` is column `q` of `W`: entry `(r, q)` of the host's product of `X` with `W`. -/
theorem entry (x0 : Vec Ideal S10000x64 .f32) (x1 : Vec Ideal S64x64 .f32)
    (X : FVec Ideal ⟨2, ![100000, 64]⟩ .f32) (W : FVec Ideal ⟨2, ![64, 64]⟩ .f32)
    (r : Fin 100000) (p : Fin 10000) (q : Fin 64)
    (hx : ∀ k : Fin 64, x0 (ix2 p k) = X (ix2 r k)) (hw : ∀ k : Fin 64, x1 (ix2 k q) = W (ix2 k q)) :
    k0_pay1 (F := Ideal) x0 x1 (ix2 p q) = Host.dotGeneral Cert.ReferenceIdeal.dot_S100000x64_S64x64_S100000x64_1_0_0_1_n_n none X W (ix2 r q) := by
  unfold k0_pay1
  refine (Cert.Gcn.Body.linear_apply dot_S10000x64_S64x64_S10000x64_1_0_0_1_n_n rfl rfl kl0 kl1 kr0 kr1 bitsLt_bf16_f32 x0 x1 p q).trans ?_
  rw [MatmulIx.dotGeneral_ix2 Cert.ReferenceIdeal.dot_S100000x64_S64x64_S100000x64_1_0_0_1_n_n rfl rfl
    Cert.ReferenceIdeal.Read.lhs_main_v11_0 Cert.ReferenceIdeal.Read.lhs_main_v11_1 Cert.ReferenceIdeal.Read.rhs_main_v11_0
    Cert.ReferenceIdeal.Read.rhs_main_v11_1 none X W r q]
  exact Finset.sum_congr rfl fun k _ => by rw [hx k, hw k]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The host's product of an array with a weight: what the output array is compared with. -/
abbrev product (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

/-- The windows' block indices over the ten grid points: the input's and the output's row block is the point's number,
    the weight's one block is block 0, and no window moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the host's product of the input array with the weight. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e00, e01, e10, e11, e20, e21⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k0_pay1 (iblk0 V c 0 t) (iblk0 V c 1 t) (ix2 p q)
    = product (V c main_arg0) (V c main_arg2) (((cfg0.win 2).blk t).view.emb (ix2 p q))
  have hout : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hout]
  show _ = Host.dotGeneral (F := Ideal) Cert.ReferenceIdeal.dot_S100000x64_S64x64_S100000x64_1_0_0_1_n_n none (V c main_arg0) (V c main_arg2) _
  refine entry (iblk0 V c 0 t) (iblk0 V c 1 t) (V c main_arg0) (V c main_arg2) ⟨t.val * 10000 + p.val, by omega⟩ p q
    (fun k => ?_) (fun k => ?_)
  · show V c main_arg0 (((cfg0.win 0).blk t).view.emb (ix2 p k)) = V c main_arg0 (ix2 (⟨t.val * 10000 + p.val, by omega⟩ : Fin 100000) k)
    have h0 : ((cfg0.win 0).blk t).view.emb (ix2 p k) = ix2 (⟨t.val * 10000 + p.val, by omega⟩ : Fin 100000) k := by
      funext a; apply Fin.ext
      match a with
      | ⟨0, _⟩ => show win0_0.index t (0 : Fin 2) * 10000 + 1 * p.val = t.val * 10000 + p.val; omega
      | ⟨1, _⟩ => show win0_0.index t (1 : Fin 2) * 64 + 1 * k.val = k.val; omega
    rw [h0]
  · show V c main_arg2 (((cfg0.win 1).blk t).view.emb (ix2 k q)) = V c main_arg2 (ix2 k q)
    have h1 : ((cfg0.win 1).blk t).view.emb (ix2 k q) = ix2 k q := by
      funext a; apply Fin.ext
      match a with
      | ⟨0, _⟩ => show win0_1.index t (0 : Fin 2) * 64 + 1 * k.val = k.val; omega
      | ⟨1, _⟩ => show win0_1.index t (1 : Fin 2) * 64 + 1 * q.val = q.val; omega
    rw [h1]

/-- An index of the array lies in point `t`'s block iff each coordinate lies in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v13).slice (win0_2.rect t)).set ↔ _
  rw [View.set_slice_whole, Rect.mem_set_unit]
  exact Iff.rfl

/-- The ten blocks tile the array: row `r` lies in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show (i 0).val / 10000 < 10; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region: the host's product of the input array with the weight, as the region finds them. -/
theorem array (c : Dev nD) :
    (dat0 V c).arrAt 2 cfg0.N = product (V c main_arg0) (V c main_arg2) :=
  (dat0 V c).arrAt_eq_of_cover 2 (product (V c main_arg0) (V c main_arg2)) (fun t _ => flushed_eq V c t) cover

end Blocks

end Cert.KernelIdeal.Region0

end
-- ==== Proof.Region1.lean ====
/-
  Region 1 (the first layer's combine stage).  The output array [100000, 64] is written in ten row blocks of 10000
  rows.  Block `t` holds, at `(p, q)`, the maximum with 0 of: the aggregate's block entry, plus the node features'
  block entry times the entry of row `p` of the column block `[10000, 1]` of inverse degrees, plus entry `q` of the
  bias row.  The three row-blocked inputs' block `t` is rows `10000·t …` of their arrays and the bias row's one block
  is the whole row, so block `t` of the output is block `t` of ONE whole-array function of the region's four
  arrays; the ten blocks tile the array, so it ends holding that function.
-/
import proofs.«175292_j50723563765964_1_alg».proof.Proof.Gen.KernelIdeal.Frame
import proofs.«175292_j50723563765964_1_alg».proof.Proof.LibGcnBody

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0 … x3`, when the blocks' entries it reads are the arrays' entries
    of row `r`: entry `(r, q)` of the combine stage over the whole arrays. -/
theorem entry (x0 x1 : Vec Ideal S10000x64 .f32) (x2 : Vec Ideal S10000x1 .f32) (x3 : Vec Ideal S1x64 .f32)
    (A H : FVec Ideal ⟨2, ![100000, 64]⟩ .f32) (D : FVec Ideal ⟨2, ![100000, 1]⟩ .f32) (B : FVec Ideal ⟨2, ![1, 64]⟩ .f32)
    (r : Fin 100000) (p : Fin 10000) (q : Fin 64)
    (h0 : x0 (ix2 p q) = A (ix2 r q)) (h1 : x1 (ix2 p q) = H (ix2 r q))
    (h2 : x2 (ix2 p (0 : Fin 1)) = D (ix2 r (0 : Fin 1))) (h3 : x3 (ix2 (0 : Fin 1) q) = B (ix2 (0 : Fin 1) q)) :
    k1_pay1 (F := Ideal) x0 x1 x2 x3 (ix2 p q) = Cert.Gcn.Body.combined A H D B (ix2 r q) := by
  unfold k1_pay1
  refine (Cert.Gcn.Body.combine_apply x0 x1 x2 x3 shapeCasts_S10000x64_S10000x64 shapeCasts_S10000x1_S10000x1
    shapeCasts_S1x64_S1x64 broadcasts_S1x64_S10000x64 broadcasts_S10000x1_S10000x64 p q).trans ?_
  rw [Cert.Gcn.Body.combined_ix2, h0, h1, h2, h3]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The combine stage over the region's four arrays: what the output array is compared with. -/
abbrev merged (A H : FVec Ideal S100000x64 .f32) (D : FVec Ideal S100000x1 .f32) (B : FVec Ideal S1x64 .f32) :
    FVec Ideal S100000x64 .f32 :=
  Cert.Gcn.Body.combined (a := 100000) (b := 64) A H D B

/-- The windows' block indices over the ten grid points: the three row-blocked inputs' and the output's row block is the
    point's number, the bias row's one block is block 0, and no window moves along the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is block `t` of the combine stage over the region's arrays. -/
theorem flushed_eq (c : Dev nD) (t : Fin cfg1.N) :
    (dat1 V c).flushed 4 t = ((cfg1.win 4).blk t).view.read (Elt Ideal)
      (merged (V c main_v41) (V c main_v13) (V c main_v12) (V c main_v42)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k1_pay1 (iblk1 V c 0 t) (iblk1 V c 1 t) (iblk1 V c 2 t) (iblk1 V c 3 t) (ix2 p q)
    = merged (V c main_v41) (V c main_v13) (V c main_v12) (V c main_v42) (((cfg1.win 4).blk t).view.emb (ix2 p q))
  have hout : ((cfg1.win 4).blk t).view.emb (ix2 p q) = ix2 (⟨t.val * 10000 + p.val, by omega⟩ : Fin 100000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  rw [hout]
  show _ = Cert.Gcn.Body.combined (a := 100000) (b := 64) (V c main_v41) (V c main_v13) (V c main_v12) (V c main_v42) _
  refine entry (iblk1 V c 0 t) (iblk1 V c 1 t) (iblk1 V c 2 t) (iblk1 V c 3 t) (V c main_v41) (V c main_v13) (V c main_v12)
    (V c main_v42) ⟨t.val * 10000 + p.val, by omega⟩ p q ?_ ?_ ?_ ?_
  · show V c main_v41 (((cfg1.win 0).blk t).view.emb (ix2 p q)) = V c main_v41 (ix2 (⟨t.val * 10000 + p.val, by omega⟩ : Fin 100000) q)
    have h : ((cfg1.win 0).blk t).view.emb (ix2 p q) = ix2 (⟨t.val * 10000 + p.val, by omega⟩ : Fin 100000) q := by
      funext a; apply Fin.ext
      match a with
      | ⟨0, _⟩ => show win1_0.index t (0 : Fin 2) * 10000 + 1 * p.val = t.val * 10000 + p.val; omega
      | ⟨1, _⟩ => show win1_0.index t (1 : Fin 2) * 64 + 1 * q.val = q.val; omega
    rw [h]
  · show V c main_v13 (((cfg1.win 1).blk t).view.emb (ix2 p q)) = V c main_v13 (ix2 (⟨t.val * 10000 + p.val, by omega⟩ : Fin 100000) q)
    have h : ((cfg1.win 1).blk t).view.emb (ix2 p q) = ix2 (⟨t.val * 10000 + p.val, by omega⟩ : Fin 100000) q := by
      funext a; apply Fin.ext
      match a with
      | ⟨0, _⟩ => show win1_1.index t (0 : Fin 2) * 10000 + 1 * p.val = t.val * 10000 + p.val; omega
      | ⟨1, _⟩ => show win1_1.index t (1 : Fin 2) * 64 + 1 * q.val = q.val; omega
    rw [h]
  · show V c main_v12 (((cfg1.win 2).blk t).view.emb (ix2 p (0 : Fin 1))) = V c main_v12 (ix2 (⟨t.val * 10000 + p.val, by omega⟩ : Fin 100000) (0 : Fin 1))
    have h : ((cfg1.win 2).blk t).view.emb (ix2 p (0 : Fin 1)) = ix2 (⟨t.val * 10000 + p.val, by omega⟩ : Fin 100000) (0 : Fin 1) := by
      funext a; apply Fin.ext
      match a with
      | ⟨0, _⟩ => show win1_2.index t (0 : Fin 2) * 10000 + 1 * p.val = t.val * 10000 + p.val; omega
      | ⟨1, _⟩ => show win1_2.index t (1 : Fin 2) * 1 + 1 * 0 = 0; omega
    rw [h]
  · show V c main_v42 (((cfg1.win 3).blk t).view.emb (ix2 (0 : Fin 1) q)) = V c main_v42 (ix2 (0 : Fin 1) q)
    have h : ((cfg1.win 3).blk t).view.emb (ix2 (0 : Fin 1) q) = ix2 (0 : Fin 1) q := by
      funext a; apply Fin.ext
      match a with
      | ⟨0, _⟩ => show win1_3.index t (0 : Fin 2) * 1 + 1 * 0 = 0; omega
      | ⟨1, _⟩ => show win1_3.index t (1 : Fin 2) * 64 + 1 * q.val = q.val; omega
    rw [h]

/-- An index of the array lies in point `t`'s block iff each coordinate lies in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- The ten blocks tile the array: row `r` lies in block `r / 10000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, by show (i 0).val / 10000 < 10; omega⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- The output array after the region: the combine stage over the region's four arrays, as the region finds them. -/
theorem array (c : Dev nD) :
    (dat1 V c).arrAt 4 cfg1.N = merged (V c main_v41) (V c main_v13) (V c main_v12) (V c main_v42) :=
  (dat1 V c).arrAt_eq_of_cover 4 (merged (V c main_v41) (V c main_v13) (V c main_v12) (V c main_v42))
    (fun t _ => flushed_eq V c t) cover

end Blocks

end Cert.KernelIdeal.Region1

end
-- ==== Proof.Region2.lean ====
/-
  Region 2 (the second layer's linear stage).  The output array [100000, 64] is written in ten row blocks of
  10000 rows; block `t` holds, at `(p, q)`, the sum over `k` of the input block's `(p, k)` entry times the weight's
  `(k, q)` entry.  The input block `t` is rows `10000·t … 10000·t + 9999` of the input array and the weight's one
  block is the whole weight, so block `t` of the output is block `t` of ONE whole-array function of the region's
  arrays: the matrix product of the input array with the weight, which is how the host's `dot_general` reads at an
  entry.  The ten blocks tile the array (row `r` lies in block `r / 10000`), so the array ends holding that product.
-/
import proofs.«175292_j50723563765964_1_alg».proof.Proof.Gen.KernelIdeal.Frame
import proofs.«175292_j50723563765964_1_alg».proof.Proof.Gen.ReferenceIdeal.Read
import proofs.«175292_j50723563765964_1_alg».proof.Proof.LibGcnBody
import proofs.«175292_j50723563765964_1_alg».proof.Proof.Region0

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0`, `x1`, when row `p` of `x0` is row `r` of an array `X` and column
    `q` of `x1` is column `q` of `W`: entry `(r, q)` of the host's product of `X` with `W`. -/
theorem entry (x0 : Vec Ideal S10000x64 .f32) (x1 : Vec Ideal S64x64 .f32)
    (X : FVec Ideal ⟨2, ![100000, 64]⟩ .f32) (W : FVec Ideal ⟨2, ![64, 64]⟩ .f32)
    (r : Fin 100000) (p : Fin 10000) (q : Fin 64)
    (hx : ∀ k : Fin 64, x0 (ix2 p k) = X (ix2 r k)) (hw : ∀ k : Fin 64, x1 (ix2 k q) = W (ix2 k q)) :
    k2_pay1 (F := Ideal) x0 x1 (ix2 p q) = Host.dotGeneral Cert.ReferenceIdeal.dot_S100000x64_S64x64_S100000x64_1_0_0_1_n_n none X W (ix2 r q) := by
  unfold k2_pay1
  refine (Cert.Gcn.Body.linearCast_apply dot_S10000x64_S64x64_S10000x64_1_0_0_1_n_n rfl rfl Region0.kl0 Region0.kl1 Region0.kr0 Region0.kr1
    bitsLt_bf16_f32 x0 x1 shapeCasts_S10000x64_S10000x64 p q).trans ?_
  rw [MatmulIx.dotGeneral_ix2 Cert.ReferenceIdeal.dot_S100000x64_S64x64_S100000x64_1_0_0_1_n_n rfl rfl
    Cert.ReferenceIdeal.Read.lhs_main_v11_0 Cert.ReferenceIdeal.Read.lhs_main_v11_1 Cert.ReferenceIdeal.Read.rhs_main_v11_0
    Cert.ReferenceIdeal.Read.rhs_main_v11_1 none X W r q]
  exact Finset.sum_congr rfl fun k _ => by rw [hx k, hw k]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The host's product of an array with a weight: what the output array is compared with. -/
abbrev product (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

/-- The windows' block indices over the ten grid points: the input's and the output's row block is the point's number,
    the weight's one block is block 0, and no window moves along the columns. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the host's product of the input array with the weight. -/
theorem flushed_eq (c : Dev nD) (t : Fin cfg2.N) :
    (dat2 V c).flushed 2 t = ((cfg2.win 2).blk t).view.read (Elt Ideal) (product (V c main_v43) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e00, e01, e10, e11, e20, e21⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k2_pay1 (iblk2 V c 0 t) (iblk2 V c 1 t) (ix2 p q)
    = product (V c main_v43) (V c main_arg4) (((cfg2.win 2).blk t).view.emb (ix2 p q))
  have hout : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hout]
  show _ = Host.dotGeneral (F := Ideal) Cert.ReferenceIdeal.dot_S100000x64_S64x64_S100000x64_1_0_0_1_n_n none (V c main_v43) (V c main_arg4) _
  refine entry (iblk2 V c 0 t) (iblk2 V c 1 t) (V c main_v43) (V c main_arg4) ⟨t.val * 10000 + p.val, by omega⟩ p q
    (fun k => ?_) (fun k => ?_)
  · show V c main_v43 (((cfg2.win 0).blk t).view.emb (ix2 p k)) = V c main_v43 (ix2 (⟨t.val * 10000 + p.val, by omega⟩ : Fin 100000) k)
    have h0 : ((cfg2.win 0).blk t).view.emb (ix2 p k) = ix2 (⟨t.val * 10000 + p.val, by omega⟩ : Fin 100000) k := by
      funext a; apply Fin.ext
      match a with
      | ⟨0, _⟩ => show win2_0.index t (0 : Fin 2) * 10000 + 1 * p.val = t.val * 10000 + p.val; omega
      | ⟨1, _⟩ => show win2_0.index t (1 : Fin 2) * 64 + 1 * k.val = k.val; omega
    rw [h0]
  · show V c main_arg4 (((cfg2.win 1).blk t).view.emb (ix2 k q)) = V c main_arg4 (ix2 k q)
    have h1 : ((cfg2.win 1).blk t).view.emb (ix2 k q) = ix2 k q := by
      funext a; apply Fin.ext
      match a with
      | ⟨0, _⟩ => show win2_1.index t (0 : Fin 2) * 64 + 1 * k.val = k.val; omega
      | ⟨1, _⟩ => show win2_1.index t (1 : Fin 2) * 64 + 1 * q.val = q.val; omega
    rw [h1]

/-- An index of the array lies in point `t`'s block iff each coordinate lies in the block's range on its axis. -/
theorem mem_blk (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v44).slice (win2_2.rect t)).set ↔ _
  rw [View.set_slice_whole, Rect.mem_set_unit]
  exact Iff.rfl

/-- The ten blocks tile the array: row `r` lies in block `r / 10000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show (i 0).val / 10000 < 10; omega⟩, rfl⟩
  obtain ⟨-, -, -, -, e20, e21⟩ := idx_facts t
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 64 ≤ (i 1).val ∧ (i 1).val < win2_2.index t (1 : Fin 2) * 64 + 64
    omega

/-- The output array after the region: the host's product of the input array with the weight, as the region finds them. -/
theorem array (c : Dev nD) :
    (dat2 V c).arrAt 2 cfg2.N = product (V c main_v43) (V c main_arg4) :=
  (dat2 V c).arrAt_eq_of_cover 2 (product (V c main_v43) (V c main_arg4)) (fun t _ => flushed_eq V c t) cover

end Blocks

end Cert.KernelIdeal.Region2

end
-- ==== Proof.Region3.lean ====
/-
  Region 3 (the second layer's combine stage).  The output array [100000, 64] is written in ten row blocks of 10000
  rows.  Block `t` holds, at `(p, q)`, the maximum with 0 of: the aggregate's block entry, plus the node features'
  block entry times the entry of row `p` of the column block `[10000, 1]` of inverse degrees, plus entry `q` of the
  bias row.  The three row-blocked inputs' block `t` is rows `10000·t …` of their arrays and the bias row's one block
  is the whole row, so block `t` of the output is block `t` of ONE whole-array function of the region's four
  arrays; the ten blocks tile the array, so it ends holding that function.
-/
import proofs.«175292_j50723563765964_1_alg».proof.Proof.Gen.KernelIdeal.Frame
import proofs.«175292_j50723563765964_1_alg».proof.Proof.LibGcnBody

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0 … x3`, when the blocks' entries it reads are the arrays' entries
    of row `r`: entry `(r, q)` of the combine stage over the whole arrays. -/
theorem entry (x0 x1 : Vec Ideal S10000x64 .f32) (x2 : Vec Ideal S10000x1 .f32) (x3 : Vec Ideal S1x64 .f32)
    (A H : FVec Ideal ⟨2, ![100000, 64]⟩ .f32) (D : FVec Ideal ⟨2, ![100000, 1]⟩ .f32) (B : FVec Ideal ⟨2, ![1, 64]⟩ .f32)
    (r : Fin 100000) (p : Fin 10000) (q : Fin 64)
    (h0 : x0 (ix2 p q) = A (ix2 r q)) (h1 : x1 (ix2 p q) = H (ix2 r q))
    (h2 : x2 (ix2 p (0 : Fin 1)) = D (ix2 r (0 : Fin 1))) (h3 : x3 (ix2 (0 : Fin 1) q) = B (ix2 (0 : Fin 1) q)) :
    k3_pay1 (F := Ideal) x0 x1 x2 x3 (ix2 p q) = Cert.Gcn.Body.combined A H D B (ix2 r q) := by
  unfold k3_pay1
  refine (Cert.Gcn.Body.combine_apply x0 x1 x2 x3 shapeCasts_S10000x64_S10000x64 shapeCasts_S10000x1_S10000x1
    shapeCasts_S1x64_S1x64 broadcasts_S1x64_S10000x64 broadcasts_S10000x1_S10000x64 p q).trans ?_
  rw [Cert.Gcn.Body.combined_ix2, h0, h1, h2, h3]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The combine stage over the region's four arrays: what the output array is compared with. -/
abbrev merged (A H : FVec Ideal S100000x64 .f32) (D : FVec Ideal S100000x1 .f32) (B : FVec Ideal S1x64 .f32) :
    FVec Ideal S100000x64 .f32 :=
  Cert.Gcn.Body.combined (a := 100000) (b := 64) A H D B

/-- The windows' block indices over the ten grid points: the three row-blocked inputs' and the output's row block is the
    point's number, the bias row's one block is block 0, and no window moves along the columns. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What grid point `t` writes back is block `t` of the combine stage over the region's arrays. -/
theorem flushed_eq (c : Dev nD) (t : Fin cfg3.N) :
    (dat3 V c).flushed 4 t = ((cfg3.win 4).blk t).view.read (Elt Ideal)
      (merged (V c main_v72) (V c main_v44) (V c main_v12) (V c main_v73)) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k3_pay1 (iblk3 V c 0 t) (iblk3 V c 1 t) (iblk3 V c 2 t) (iblk3 V c 3 t) (ix2 p q)
    = merged (V c main_v72) (V c main_v44) (V c main_v12) (V c main_v73) (((cfg3.win 4).blk t).view.emb (ix2 p q))
  have hout : ((cfg3.win 4).blk t).view.emb (ix2 p q) = ix2 (⟨t.val * 10000 + p.val, by omega⟩ : Fin 100000) q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  rw [hout]
  show _ = Cert.Gcn.Body.combined (a := 100000) (b := 64) (V c main_v72) (V c main_v44) (V c main_v12) (V c main_v73) _
  refine entry (iblk3 V c 0 t) (iblk3 V c 1 t) (iblk3 V c 2 t) (iblk3 V c 3 t) (V c main_v72) (V c main_v44) (V c main_v12)
    (V c main_v73) ⟨t.val * 10000 + p.val, by omega⟩ p q ?_ ?_ ?_ ?_
  · show V c main_v72 (((cfg3.win 0).blk t).view.emb (ix2 p q)) = V c main_v72 (ix2 (⟨t.val * 10000 + p.val, by omega⟩ : Fin 100000) q)
    have h : ((cfg3.win 0).blk t).view.emb (ix2 p q) = ix2 (⟨t.val * 10000 + p.val, by omega⟩ : Fin 100000) q := by
      funext a; apply Fin.ext
      match a with
      | ⟨0, _⟩ => show win3_0.index t (0 : Fin 2) * 10000 + 1 * p.val = t.val * 10000 + p.val; omega
      | ⟨1, _⟩ => show win3_0.index t (1 : Fin 2) * 64 + 1 * q.val = q.val; omega
    rw [h]
  · show V c main_v44 (((cfg3.win 1).blk t).view.emb (ix2 p q)) = V c main_v44 (ix2 (⟨t.val * 10000 + p.val, by omega⟩ : Fin 100000) q)
    have h : ((cfg3.win 1).blk t).view.emb (ix2 p q) = ix2 (⟨t.val * 10000 + p.val, by omega⟩ : Fin 100000) q := by
      funext a; apply Fin.ext
      match a with
      | ⟨0, _⟩ => show win3_1.index t (0 : Fin 2) * 10000 + 1 * p.val = t.val * 10000 + p.val; omega
      | ⟨1, _⟩ => show win3_1.index t (1 : Fin 2) * 64 + 1 * q.val = q.val; omega
    rw [h]
  · show V c main_v12 (((cfg3.win 2).blk t).view.emb (ix2 p (0 : Fin 1))) = V c main_v12 (ix2 (⟨t.val * 10000 + p.val, by omega⟩ : Fin 100000) (0 : Fin 1))
    have h : ((cfg3.win 2).blk t).view.emb (ix2 p (0 : Fin 1)) = ix2 (⟨t.val * 10000 + p.val, by omega⟩ : Fin 100000) (0 : Fin 1) := by
      funext a; apply Fin.ext
      match a with
      | ⟨0, _⟩ => show win3_2.index t (0 : Fin 2) * 10000 + 1 * p.val = t.val * 10000 + p.val; omega
      | ⟨1, _⟩ => show win3_2.index t (1 : Fin 2) * 1 + 1 * 0 = 0; omega
    rw [h]
  · show V c main_v73 (((cfg3.win 3).blk t).view.emb (ix2 (0 : Fin 1) q)) = V c main_v73 (ix2 (0 : Fin 1) q)
    have h : ((cfg3.win 3).blk t).view.emb (ix2 (0 : Fin 1) q) = ix2 (0 : Fin 1) q := by
      funext a; apply Fin.ext
      match a with
      | ⟨0, _⟩ => show win3_3.index t (0 : Fin 2) * 1 + 1 * 0 = 0; omega
      | ⟨1, _⟩ => show win3_3.index t (1 : Fin 2) * 64 + 1 * q.val = q.val; omega
    rw [h]

/-- An index of the array lies in point `t`'s block iff each coordinate lies in the block's range on its axis. -/
theorem mem_blk (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v74).slice (win3_4.rect t)).set ↔ _
  rw [View.set_slice_whole, Rect.mem_set_unit]
  exact Iff.rfl

/-- The ten blocks tile the array: row `r` lies in block `r / 10000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, by show (i 0).val / 10000 < 10; omega⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 64 ≤ (i 1).val ∧ (i 1).val < win3_4.index t (1 : Fin 2) * 64 + 64
    omega

/-- The output array after the region: the combine stage over the region's four arrays, as the region finds them. -/
theorem array (c : Dev nD) :
    (dat3 V c).arrAt 4 cfg3.N = merged (V c main_v72) (V c main_v44) (V c main_v12) (V c main_v73) :=
  (dat3 V c).arrAt_eq_of_cover 4 (merged (V c main_v72) (V c main_v44) (V c main_v12) (V c main_v73))
    (fun t _ => flushed_eq V c t) cover

end Blocks

end Cert.KernelIdeal.Region3

end
-- ==== Proof.Region4.lean ====
/-
  Region 4 (the third layer's linear stage).  The output array [100000, 64] is written in ten row blocks of
  10000 rows; block `t` holds, at `(p, q)`, the sum over `k` of the input block's `(p, k)` entry times the weight's
  `(k, q)` entry.  The input block `t` is rows `10000·t … 10000·t + 9999` of the input array and the weight's one
  block is the whole weight, so block `t` of the output is block `t` of ONE whole-array function of the region's
  arrays: the matrix product of the input array with the weight, which is how the host's `dot_general` reads at an
  entry.  The ten blocks tile the array (row `r` lies in block `r / 10000`), so the array ends holding that product.
-/
import proofs.«175292_j50723563765964_1_alg».proof.Proof.Gen.KernelIdeal.Frame
import proofs.«175292_j50723563765964_1_alg».proof.Proof.Gen.ReferenceIdeal.Read
import proofs.«175292_j50723563765964_1_alg».proof.Proof.LibGcnBody
import proofs.«175292_j50723563765964_1_alg».proof.Proof.Region0

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0`, `x1`, when row `p` of `x0` is row `r` of an array `X` and column
    `q` of `x1` is column `q` of `W`: entry `(r, q)` of the host's product of `X` with `W`. -/
theorem entry (x0 : Vec Ideal S10000x64 .f32) (x1 : Vec Ideal S64x64 .f32)
    (X : FVec Ideal ⟨2, ![100000, 64]⟩ .f32) (W : FVec Ideal ⟨2, ![64, 64]⟩ .f32)
    (r : Fin 100000) (p : Fin 10000) (q : Fin 64)
    (hx : ∀ k : Fin 64, x0 (ix2 p k) = X (ix2 r k)) (hw : ∀ k : Fin 64, x1 (ix2 k q) = W (ix2 k q)) :
    k4_pay1 (F := Ideal) x0 x1 (ix2 p q) = Host.dotGeneral Cert.ReferenceIdeal.dot_S100000x64_S64x64_S100000x64_1_0_0_1_n_n none X W (ix2 r q) := by
  unfold k4_pay1
  refine (Cert.Gcn.Body.linearCast_apply dot_S10000x64_S64x64_S10000x64_1_0_0_1_n_n rfl rfl Region0.kl0 Region0.kl1 Region0.kr0 Region0.kr1
    bitsLt_bf16_f32 x0 x1 shapeCasts_S10000x64_S10000x64 p q).trans ?_
  rw [MatmulIx.dotGeneral_ix2 Cert.ReferenceIdeal.dot_S100000x64_S64x64_S100000x64_1_0_0_1_n_n rfl rfl
    Cert.ReferenceIdeal.Read.lhs_main_v11_0 Cert.ReferenceIdeal.Read.lhs_main_v11_1 Cert.ReferenceIdeal.Read.rhs_main_v11_0
    Cert.ReferenceIdeal.Read.rhs_main_v11_1 none X W r q]
  exact Finset.sum_congr rfl fun k _ => by rw [hx k, hw k]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The host's product of an array with a weight: what the output array is compared with. -/
abbrev product (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

/-- The windows' block indices over the ten grid points: the input's and the output's row block is the point's number,
    the weight's one block is block 0, and no window moves along the columns. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the host's product of the input array with the weight. -/
theorem flushed_eq (c : Dev nD) (t : Fin cfg4.N) :
    (dat4 V c).flushed 2 t = ((cfg4.win 2).blk t).view.read (Elt Ideal) (product (V c main_v74) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨e00, e01, e10, e11, e20, e21⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k4_pay1 (iblk4 V c 0 t) (iblk4 V c 1 t) (ix2 p q)
    = product (V c main_v74) (V c main_arg6) (((cfg4.win 2).blk t).view.emb (ix2 p q))
  have hout : ((cfg4.win 2).blk t).view.emb (ix2 p q) = ix2 (⟨t.val * 10000 + p.val, by omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  rw [hout]
  show _ = Host.dotGeneral (F := Ideal) Cert.ReferenceIdeal.dot_S100000x64_S64x64_S100000x64_1_0_0_1_n_n none (V c main_v74) (V c main_arg6) _
  refine entry (iblk4 V c 0 t) (iblk4 V c 1 t) (V c main_v74) (V c main_arg6) ⟨t.val * 10000 + p.val, by omega⟩ p q
    (fun k => ?_) (fun k => ?_)
  · show V c main_v74 (((cfg4.win 0).blk t).view.emb (ix2 p k)) = V c main_v74 (ix2 (⟨t.val * 10000 + p.val, by omega⟩ : Fin 100000) k)
    have h0 : ((cfg4.win 0).blk t).view.emb (ix2 p k) = ix2 (⟨t.val * 10000 + p.val, by omega⟩ : Fin 100000) k := by
      funext a; apply Fin.ext
      match a with
      | ⟨0, _⟩ => show win4_0.index t (0 : Fin 2) * 10000 + 1 * p.val = t.val * 10000 + p.val; omega
      | ⟨1, _⟩ => show win4_0.index t (1 : Fin 2) * 64 + 1 * k.val = k.val; omega
    rw [h0]
  · show V c main_arg6 (((cfg4.win 1).blk t).view.emb (ix2 k q)) = V c main_arg6 (ix2 k q)
    have h1 : ((cfg4.win 1).blk t).view.emb (ix2 k q) = ix2 k q := by
      funext a; apply Fin.ext
      match a with
      | ⟨0, _⟩ => show win4_1.index t (0 : Fin 2) * 64 + 1 * k.val = k.val; omega
      | ⟨1, _⟩ => show win4_1.index t (1 : Fin 2) * 64 + 1 * q.val = q.val; omega
    rw [h1]

/-- An index of the array lies in point `t`'s block iff each coordinate lies in the block's range on its axis. -/
theorem mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v75).slice (win4_2.rect t)).set ↔ _
  rw [View.set_slice_whole, Rect.mem_set_unit]
  exact Iff.rfl

/-- The ten blocks tile the array: row `r` lies in block `r / 10000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, by show (i 0).val / 10000 < 10; omega⟩, rfl⟩
  obtain ⟨-, -, -, -, e20, e21⟩ := idx_facts t
  refine ⟨t, flush4_2 t, ?_⟩
  rw [mem_blk]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 64 ≤ (i 1).val ∧ (i 1).val < win4_2.index t (1 : Fin 2) * 64 + 64
    omega

/-- The output array after the region: the host's product of the input array with the weight, as the region finds them. -/
theorem array (c : Dev nD) :
    (dat4 V c).arrAt 2 cfg4.N = product (V c main_v74) (V c main_arg6) :=
  (dat4 V c).arrAt_eq_of_cover 2 (product (V c main_v74) (V c main_arg6)) (fun t _ => flushed_eq V c t) cover

end Blocks

end Cert.KernelIdeal.Region4

end
-- ==== Proof.Region5.lean ====
/-
  Region 5 (the third layer's combine stage).  The output array [100000, 64] is written in ten row blocks of 10000
  rows.  Block `t` holds, at `(p, q)`, the maximum with 0 of: the aggregate's block entry, plus the node features'
  block entry times the entry of row `p` of the column block `[10000, 1]` of inverse degrees, plus entry `q` of the
  bias row.  The three row-blocked inputs' block `t` is rows `10000·t …` of their arrays and the bias row's one block
  is the whole row, so block `t` of the output is block `t` of ONE whole-array function of the region's four
  arrays; the ten blocks tile the array, so it ends holding that function.
-/
import proofs.«175292_j50723563765964_1_alg».proof.Proof.Gen.KernelIdeal.Frame
import proofs.«175292_j50723563765964_1_alg».proof.Proof.LibGcnBody

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0 … x3`, when the blocks' entries it reads are the arrays' entries
    of row `r`: entry `(r, q)` of the combine stage over the whole arrays. -/
theorem entry (x0 x1 : Vec Ideal S10000x64 .f32) (x2 : Vec Ideal S10000x1 .f32) (x3 : Vec Ideal S1x64 .f32)
    (A H : FVec Ideal ⟨2, ![100000, 64]⟩ .f32) (D : FVec Ideal ⟨2, ![100000, 1]⟩ .f32) (B : FVec Ideal ⟨2, ![1, 64]⟩ .f32)
    (r : Fin 100000) (p : Fin 10000) (q : Fin 64)
    (h0 : x0 (ix2 p q) = A (ix2 r q)) (h1 : x1 (ix2 p q) = H (ix2 r q))
    (h2 : x2 (ix2 p (0 : Fin 1)) = D (ix2 r (0 : Fin 1))) (h3 : x3 (ix2 (0 : Fin 1) q) = B (ix2 (0 : Fin 1) q)) :
    k5_pay1 (F := Ideal) x0 x1 x2 x3 (ix2 p q) = Cert.Gcn.Body.combined A H D B (ix2 r q) := by
  unfold k5_pay1
  refine (Cert.Gcn.Body.combine_apply x0 x1 x2 x3 shapeCasts_S10000x64_S10000x64 shapeCasts_S10000x1_S10000x1
    shapeCasts_S1x64_S1x64 broadcasts_S1x64_S10000x64 broadcasts_S10000x1_S10000x64 p q).trans ?_
  rw [Cert.Gcn.Body.combined_ix2, h0, h1, h2, h3]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The combine stage over the region's four arrays: what the output array is compared with. -/
abbrev merged (A H : FVec Ideal S100000x64 .f32) (D : FVec Ideal S100000x1 .f32) (B : FVec Ideal S1x64 .f32) :
    FVec Ideal S100000x64 .f32 :=
  Cert.Gcn.Body.combined (a := 100000) (b := 64) A H D B

/-- The windows' block indices over the ten grid points: the three row-blocked inputs' and the output's row block is the
    point's number, the bias row's one block is block 0, and no window moves along the columns. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What grid point `t` writes back is block `t` of the combine stage over the region's arrays. -/
theorem flushed_eq (c : Dev nD) (t : Fin cfg5.N) :
    (dat5 V c).flushed 4 t = ((cfg5.win 4).blk t).view.read (Elt Ideal)
      (merged (V c main_v103) (V c main_v75) (V c main_v12) (V c main_v104)) := by
  show (cfg5.win 4).cut (grid5.coords t) ((dat5 V c).after 4 t) = _
  rw [after5_4]
  unfold out5_4
  rw [View.canon_unit_zero hz]
  simp only [View.ld_unit_zero (S := S10000x64) hz, View.ld_unit_zero (S := S10000x1) hz, View.ld_unit_zero (S := S1x64) hz]
  obtain ⟨e00, e01, e10, e11, e20, e21, e30, e31, e40, e41⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k5_pay1 (iblk5 V c 0 t) (iblk5 V c 1 t) (iblk5 V c 2 t) (iblk5 V c 3 t) (ix2 p q)
    = merged (V c main_v103) (V c main_v75) (V c main_v12) (V c main_v104) (((cfg5.win 4).blk t).view.emb (ix2 p q))
  have hout : ((cfg5.win 4).blk t).view.emb (ix2 p q) = ix2 (⟨t.val * 10000 + p.val, by omega⟩ : Fin 100000) q := by
    funext a; apply Fin.ext
    match a with
    | ⟨0, _⟩ => show win5_4.index t (0 : Fin 2) * 10000 + 1 * p.val = t.val * 10000 + p.val; omega
    | ⟨1, _⟩ => show win5_4.index t (1 : Fin 2) * 64 + 1 * q.val = q.val; omega
  rw [hout]
  show _ = Cert.Gcn.Body.combined (a := 100000) (b := 64) (V c main_v103) (V c main_v75) (V c main_v12) (V c main_v104) _
  refine entry (iblk5 V c 0 t) (iblk5 V c 1 t) (iblk5 V c 2 t) (iblk5 V c 3 t) (V c main_v103) (V c main_v75) (V c main_v12)
    (V c main_v104) ⟨t.val * 10000 + p.val, by omega⟩ p q ?_ ?_ ?_ ?_
  · show V c main_v103 (((cfg5.win 0).blk t).view.emb (ix2 p q)) = V c main_v103 (ix2 (⟨t.val * 10000 + p.val, by omega⟩ : Fin 100000) q)
    have h : ((cfg5.win 0).blk t).view.emb (ix2 p q) = ix2 (⟨t.val * 10000 + p.val, by omega⟩ : Fin 100000) q := by
      funext a; apply Fin.ext
      match a with
      | ⟨0, _⟩ => show win5_0.index t (0 : Fin 2) * 10000 + 1 * p.val = t.val * 10000 + p.val; omega
      | ⟨1, _⟩ => show win5_0.index t (1 : Fin 2) * 64 + 1 * q.val = q.val; omega
    rw [h]
  · show V c main_v75 (((cfg5.win 1).blk t).view.emb (ix2 p q)) = V c main_v75 (ix2 (⟨t.val * 10000 + p.val, by omega⟩ : Fin 100000) q)
    have h : ((cfg5.win 1).blk t).view.emb (ix2 p q) = ix2 (⟨t.val * 10000 + p.val, by omega⟩ : Fin 100000) q := by
      funext a; apply Fin.ext
      match a with
      | ⟨0, _⟩ => show win5_1.index t (0 : Fin 2) * 10000 + 1 * p.val = t.val * 10000 + p.val; omega
      | ⟨1, _⟩ => show win5_1.index t (1 : Fin 2) * 64 + 1 * q.val = q.val; omega
    rw [h]
  · show V c main_v12 (((cfg5.win 2).blk t).view.emb (ix2 p (0 : Fin 1))) = V c main_v12 (ix2 (⟨t.val * 10000 + p.val, by omega⟩ : Fin 100000) (0 : Fin 1))
    have h : ((cfg5.win 2).blk t).view.emb (ix2 p (0 : Fin 1)) = ix2 (⟨t.val * 10000 + p.val, by omega⟩ : Fin 100000) (0 : Fin 1) := by
      funext a; apply Fin.ext
      match a with
      | ⟨0, _⟩ => show win5_2.index t (0 : Fin 2) * 10000 + 1 * p.val = t.val * 10000 + p.val; omega
      | ⟨1, _⟩ => show win5_2.index t (1 : Fin 2) * 1 + 1 * 0 = 0; omega
    rw [h]
  · show V c main_v104 (((cfg5.win 3).blk t).view.emb (ix2 (0 : Fin 1) q)) = V c main_v104 (ix2 (0 : Fin 1) q)
    have h : ((cfg5.win 3).blk t).view.emb (ix2 (0 : Fin 1) q) = ix2 (0 : Fin 1) q := by
      funext a; apply Fin.ext
      match a with
      | ⟨0, _⟩ => show win5_3.index t (0 : Fin 2) * 1 + 1 * 0 = 0; omega
      | ⟨1, _⟩ => show win5_3.index t (1 : Fin 2) * 64 + 1 * q.val = q.val; omega
    rw [h]

/-- An index of the array lies in point `t`'s block iff each coordinate lies in the block's range on its axis. -/
theorem mem_blk (t : Fin cfg5.N) (i : S100000x64.Idx) :
    i ∈ ((cfg5.win 4).blk t).view.set ↔ ∀ a : Fin 2, win5_4.index t a * S10000x64.size a ≤ (i a).val
      ∧ (i a).val < win5_4.index t a * S10000x64.size a + S10000x64.size a := by
  show i ∈ ((View.whole main_v105).slice (win5_4.rect t)).set ↔ _
  rw [View.set_slice_whole, Rect.mem_set_unit]
  exact Iff.rfl

/-- The ten blocks tile the array: row `r` lies in block `r / 10000`. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 10000 :=
    ⟨⟨(i 0).val / 10000, by show (i 0).val / 10000 < 10; omega⟩, rfl⟩
  obtain ⟨-, -, -, -, -, -, -, -, e40, e41⟩ := idx_facts t
  refine ⟨t, flush5_4 t, ?_⟩
  rw [mem_blk]
  intro a
  match a with
  | ⟨0, _⟩ =>
    show win5_4.index t (0 : Fin 2) * 10000 ≤ (i 0).val ∧ (i 0).val < win5_4.index t (0 : Fin 2) * 10000 + 10000
    omega
  | ⟨1, _⟩ =>
    show win5_4.index t (1 : Fin 2) * 64 ≤ (i 1).val ∧ (i 1).val < win5_4.index t (1 : Fin 2) * 64 + 64
    omega

/-- The output array after the region: the combine stage over the region's four arrays, as the region finds them. -/
theorem array (c : Dev nD) :
    (dat5 V c).arrAt 4 cfg5.N = merged (V c main_v103) (V c main_v75) (V c main_v12) (V c main_v104) :=
  (dat5 V c).arrAt_eq_of_cover 4 (merged (V c main_v103) (V c main_v75) (V c main_v12) (V c main_v104))
    (fun t _ => flushed_eq V c t) cover

end Blocks

end Cert.KernelIdeal.Region5

end
-- ==== Proof.Region6.lean ====
/-
  Region 6 (the first dense stage after the graph layers).  The output array [100000, 64] is written in ten row blocks
  of 10000 rows.  Block `t` holds, at `(p, q)`, the maximum with 0 of: the sum over `k` of the input block's
  `(p, k)` entry times the weight's `(k, q)` entry, plus entry `q` of the bias row.  The input block `t` is rows
  `10000·t …` of the input array, the weight's and the bias row's one block are the whole weight and the whole row,
  so block `t` of the output is block `t` of ONE whole-array function of the region's arrays: the host's product
  of the input array with the weight, the bias row added to every row, cut below at 0.  The ten blocks tile the array.
-/
import proofs.«175292_j50723563765964_1_alg».proof.Proof.Gen.KernelIdeal.Frame
import proofs.«175292_j50723563765964_1_alg».proof.Proof.Gen.ReferenceIdeal.Read
import proofs.«175292_j50723563765964_1_alg».proof.Proof.LibGcnBody
import proofs.«175292_j50723563765964_1_alg».proof.Proof.Region0

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0`, `x1`, `x2`, when row `p` of `x0` is row `r` of an array `X`,
    column `q` of `x1` is column `q` of `W` and entry `q` of `x2` is entry `q` of `B`: entry `(r, q)` of the host's
    product of `X` with `W` with the row `B` added, cut below at 0. -/
theorem entry (x0 : Vec Ideal S10000x64 .f32) (x1 : Vec Ideal S64x64 .f32) (x2 : Vec Ideal S1x64 .f32)
    (X : FVec Ideal ⟨2, ![100000, 64]⟩ .f32) (W : FVec Ideal ⟨2, ![64, 64]⟩ .f32) (B : FVec Ideal ⟨2, ![1, 64]⟩ .f32)
    (r : Fin 100000) (p : Fin 10000) (q : Fin 64)
    (hx : ∀ k : Fin 64, x0 (ix2 p k) = X (ix2 r k)) (hw : ∀ k : Fin 64, x1 (ix2 k q) = W (ix2 k q))
    (hb : x2 (ix2 (0 : Fin 1) q) = B (ix2 (0 : Fin 1) q)) :
    k6_pay1 (F := Ideal) x0 x1 x2 (ix2 p q)
      = Cert.Gcn.Body.biasedRelu (Host.dotGeneral (F := Ideal) Cert.ReferenceIdeal.dot_S100000x64_S64x64_S100000x64_1_0_0_1_n_n none X W) B (ix2 r q) := by
  unfold k6_pay1
  refine (Cert.Gcn.Body.linearBiasRelu_apply dot_S10000x64_S64x64_S10000x64_1_0_0_1_n_n rfl rfl Region0.kl0 Region0.kl1 Region0.kr0
    Region0.kr1 bitsLt_bf16_f32 x0 x1 x2 shapeCasts_S10000x64_S10000x64 shapeCasts_S1x64_S1x64 broadcasts_S1x64_S10000x64 p q).trans ?_
  have hs : (∑ k : Fin 64, x0 (ix2 p k) * x1 (ix2 k q)) = ∑ k : Fin 64, X (ix2 r k) * W (ix2 k q) :=
    Finset.sum_congr rfl fun k _ => by rw [hx k, hw k]
  rw [Cert.Gcn.Body.biasedRelu_ix2, MatmulIx.dotGeneral_ix2 Cert.ReferenceIdeal.dot_S100000x64_S64x64_S100000x64_1_0_0_1_n_n rfl rfl
    Cert.ReferenceIdeal.Read.lhs_main_v11_0 Cert.ReferenceIdeal.Read.lhs_main_v11_1 Cert.ReferenceIdeal.Read.rhs_main_v11_0
    Cert.ReferenceIdeal.Read.rhs_main_v11_1 none X W r q, hs, hb]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The dense stage over the region's three arrays: what the output array is compared with. -/
abbrev dense (X : FVec Ideal S100000x64 .f32) (W : FVec Ideal S64x64 .f32) (B : FVec Ideal S1x64 .f32) : FVec Ideal S100000x64 .f32 :=
  Cert.Gcn.Body.biasedRelu (a := 100000) (b := 64) (Host.dotGeneral (F := Ideal) Cert.ReferenceIdeal.dot_S100000x64_S64x64_S100000x64_1_0_0_1_n_n none X W) B

/-- The windows' block indices over the ten grid points: the input's and the output's row block is the point's number,
    the weight's and the bias row's one block is block 0, and no window moves along the columns. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What grid point `t` writes back is block `t` of the dense stage over the region's arrays. -/
theorem flushed_eq (c : Dev nD) (t : Fin cfg6.N) :
    (dat6 V c).flushed 3 t = ((cfg6.win 3).blk t).view.read (Elt Ideal)
      (dense (V c main_v105) (V c main_arg8) (V c main_v106)) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k6_pay1 (iblk6 V c 0 t) (iblk6 V c 1 t) (iblk6 V c 2 t) (ix2 p q)
    = dense (V c main_v105) (V c main_arg8) (V c main_v106) (((cfg6.win 3).blk t).view.emb (ix2 p q))
  have hout : ((cfg6.win 3).blk t).view.emb (ix2 p q) = ix2 (⟨t.val * 10000 + p.val, by omega⟩ : Fin 100000) q := by
    funext a; apply Fin.ext
    match a with
    | ⟨0, _⟩ => show win6_3.index t (0 : Fin 2) * 10000 + 1 * p.val = t.val * 10000 + p.val; omega
    | ⟨1, _⟩ => show win6_3.index t (1 : Fin 2) * 64 + 1 * q.val = q.val; omega
  rw [hout]
  show _ = Cert.Gcn.Body.biasedRelu (a := 100000) (b := 64)
    (Host.dotGeneral (F := Ideal) Cert.ReferenceIdeal.dot_S100000x64_S64x64_S100000x64_1_0_0_1_n_n none (V c main_v105) (V c main_arg8)) (V c main_v106) _
  refine entry (iblk6 V c 0 t) (iblk6 V c 1 t) (iblk6 V c 2 t) (V c main_v105) (V c main_arg8) (V c main_v106)
    ⟨t.val * 10000 + p.val, by omega⟩ p q (fun k => ?_) (fun k => ?_) ?_
  · show V c main_v105 (((cfg6.win 0).blk t).view.emb (ix2 p k)) = V c main_v105 (ix2 (⟨t.val * 10000 + p.val, by omega⟩ : Fin 100000) k)
    have h : ((cfg6.win 0).blk t).view.emb (ix2 p k) = ix2 (⟨t.val * 10000 + p.val, by omega⟩ : Fin 100000) k := by
      funext a; apply Fin.ext
      match a with
      | ⟨0, _⟩ => show win6_0.index t (0 : Fin 2) * 10000 + 1 * p.val = t.val * 10000 + p.val; omega
      | ⟨1, _⟩ => show win6_0.index t (1 : Fin 2) * 64 + 1 * k.val = k.val; omega
    rw [h]
  · show V c main_arg8 (((cfg6.win 1).blk t).view.emb (ix2 k q)) = V c main_arg8 (ix2 k q)
    have h : ((cfg6.win 1).blk t).view.emb (ix2 k q) = ix2 k q := by
      funext a; apply Fin.ext
      match a with
      | ⟨0, _⟩ => show win6_1.index t (0 : Fin 2) * 64 + 1 * k.val = k.val; omega
      | ⟨1, _⟩ => show win6_1.index t (1 : Fin 2) * 64 + 1 * q.val = q.val; omega
    rw [h]
  · show V c main_v106 (((cfg6.win 2).blk t).view.emb (ix2 (0 : Fin 1) q)) = V c main_v106 (ix2 (0 : Fin 1) q)
    have h : ((cfg6.win 2).blk t).view.emb (ix2 (0 : Fin 1) q) = ix2 (0 : Fin 1) q := by
      funext a; apply Fin.ext
      match a with
      | ⟨0, _⟩ => show win6_2.index t (0 : Fin 2) * 1 + 1 * 0 = 0; omega
      | ⟨1, _⟩ => show win6_2.index t (1 : Fin 2) * 64 + 1 * q.val = q.val; omega
    rw [h]

/-- An index of the array lies in point `t`'s block iff each coordinate lies in the block's range on its axis. -/
theorem mem_blk (t : Fin cfg6.N) (i : S100000x64.Idx) :
    i ∈ ((cfg6.win 3).blk t).view.set ↔ ∀ a : Fin 2, win6_3.index t a * S10000x64.size a ≤ (i a).val
      ∧ (i a).val < win6_3.index t a * S10000x64.size a + S10000x64.size a := by
  show i ∈ ((View.whole main_v107).slice (win6_3.rect t)).set ↔ _
  rw [View.set_slice_whole, Rect.mem_set_unit]
  exact Iff.rfl

/-- The ten blocks tile the array: row `r` lies in block `r / 10000`. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ : ∃ t : Fin cfg6.N, t.val = (i 0).val / 10000 :=
    ⟨⟨(i 0).val / 10000, by show (i 0).val / 10000 < 10; omega⟩, rfl⟩
  obtain ⟨-, -, -, -, -, -, e30, e31⟩ := idx_facts t
  refine ⟨t, flush6_3 t, ?_⟩
  rw [mem_blk]
  intro a
  match a with
  | ⟨0, _⟩ =>
    show win6_3.index t (0 : Fin 2) * 10000 ≤ (i 0).val ∧ (i 0).val < win6_3.index t (0 : Fin 2) * 10000 + 10000
    omega
  | ⟨1, _⟩ =>
    show win6_3.index t (1 : Fin 2) * 64 ≤ (i 1).val ∧ (i 1).val < win6_3.index t (1 : Fin 2) * 64 + 64
    omega

/-- The output array after the region: the dense stage over the region's three arrays, as the region finds them. -/
theorem array (c : Dev nD) :
    (dat6 V c).arrAt 3 cfg6.N = dense (V c main_v105) (V c main_arg8) (V c main_v106) :=
  (dat6 V c).arrAt_eq_of_cover 3 (dense (V c main_v105) (V c main_arg8) (V c main_v106)) (fun t _ => flushed_eq V c t) cover

end Blocks

end Cert.KernelIdeal.Region6

end
-- ==== Proof.Region7.lean ====
/-
  Region 7 (the last dense stage: the node embeddings).  The output array [100000, 64] is written in ten row blocks
  of 10000 rows.  Block `t` holds, at `(p, q)`: the sum over `k` of the input block's
  `(p, k)` entry times the weight's `(k, q)` entry, plus entry `q` of the bias row.  The input block `t` is rows
  `10000·t …` of the input array, the weight's and the bias row's one block are the whole weight and the whole row,
  so block `t` of the output is block `t` of ONE whole-array function of the region's arrays: the host's product
  of the input array with the weight, the bias row added to every row.  The ten blocks tile the array.
-/
import proofs.«175292_j50723563765964_1_alg».proof.Proof.Gen.KernelIdeal.Frame
import proofs.«175292_j50723563765964_1_alg».proof.Proof.Gen.ReferenceIdeal.Read
import proofs.«175292_j50723563765964_1_alg».proof.Proof.LibGcnBody
import proofs.«175292_j50723563765964_1_alg».proof.Proof.Region0

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One entry of a block -/

/-- Entry `(p, q)` of the body's result on blocks `x0`, `x1`, `x2`, when row `p` of `x0` is row `r` of an array `X`,
    column `q` of `x1` is column `q` of `W` and entry `q` of `x2` is entry `q` of `B`: entry `(r, q)` of the host's
    product of `X` with `W` with the row `B` added. -/
theorem entry (x0 : Vec Ideal S10000x64 .f32) (x1 : Vec Ideal S64x64 .f32) (x2 : Vec Ideal S1x64 .f32)
    (X : FVec Ideal ⟨2, ![100000, 64]⟩ .f32) (W : FVec Ideal ⟨2, ![64, 64]⟩ .f32) (B : FVec Ideal ⟨2, ![1, 64]⟩ .f32)
    (r : Fin 100000) (p : Fin 10000) (q : Fin 64)
    (hx : ∀ k : Fin 64, x0 (ix2 p k) = X (ix2 r k)) (hw : ∀ k : Fin 64, x1 (ix2 k q) = W (ix2 k q))
    (hb : x2 (ix2 (0 : Fin 1) q) = B (ix2 (0 : Fin 1) q)) :
    k7_pay1 (F := Ideal) x0 x1 x2 (ix2 p q)
      = Cert.Gcn.Body.biased (Host.dotGeneral (F := Ideal) Cert.ReferenceIdeal.dot_S100000x64_S64x64_S100000x64_1_0_0_1_n_n none X W) B (ix2 r q) := by
  unfold k7_pay1
  refine (Cert.Gcn.Body.linearBias_apply dot_S10000x64_S64x64_S10000x64_1_0_0_1_n_n rfl rfl Region0.kl0 Region0.kl1 Region0.kr0
    Region0.kr1 bitsLt_bf16_f32 x0 x1 x2 shapeCasts_S10000x64_S10000x64 shapeCasts_S1x64_S1x64 broadcasts_S1x64_S10000x64 p q).trans ?_
  have hs : (∑ k : Fin 64, x0 (ix2 p k) * x1 (ix2 k q)) = ∑ k : Fin 64, X (ix2 r k) * W (ix2 k q) :=
    Finset.sum_congr rfl fun k _ => by rw [hx k, hw k]
  rw [Cert.Gcn.Body.biased_ix2, MatmulIx.dotGeneral_ix2 Cert.ReferenceIdeal.dot_S100000x64_S64x64_S100000x64_1_0_0_1_n_n rfl rfl
    Cert.ReferenceIdeal.Read.lhs_main_v11_0 Cert.ReferenceIdeal.Read.lhs_main_v11_1 Cert.ReferenceIdeal.Read.rhs_main_v11_0
    Cert.ReferenceIdeal.Read.rhs_main_v11_1 none X W r q, hs, hb]

/-! ## From the ten blocks to the array -/

section Blocks

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The dense stage over the region's three arrays: what the output array is compared with. -/
abbrev dense (X : FVec Ideal S100000x64 .f32) (W : FVec Ideal S64x64 .f32) (B : FVec Ideal S1x64 .f32) : FVec Ideal S100000x64 .f32 :=
  Cert.Gcn.Body.biased (a := 100000) (b := 64) (Host.dotGeneral (F := Ideal) Cert.ReferenceIdeal.dot_S100000x64_S64x64_S100000x64_1_0_0_1_n_n none X W) B

/-- The windows' block indices over the ten grid points: the input's and the output's row block is the point's number,
    the weight's and the bias row's one block is block 0, and no window moves along the columns. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What grid point `t` writes back is block `t` of the dense stage over the region's arrays. -/
theorem flushed_eq (c : Dev nD) (t : Fin cfg7.N) :
    (dat7 V c).flushed 3 t = ((cfg7.win 3).blk t).view.read (Elt Ideal)
      (dense (V c main_v107) (V c main_arg10) (V c main_v108)) := by
  show (cfg7.win 3).cut (grid7.coords t) ((dat7 V c).after 3 t) = _
  rw [after7_3]
  unfold out7_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  have ht : t.val < 10 := t.isLt
  funext j
  obtain ⟨p, q, rfl⟩ : ∃ (p : Fin 10000) (q : Fin 64), j = ix2 p q := ⟨j 0, j 1, eq_ix2 j⟩
  have hp : p.val < 10000 := p.isLt
  show k7_pay1 (iblk7 V c 0 t) (iblk7 V c 1 t) (iblk7 V c 2 t) (ix2 p q)
    = dense (V c main_v107) (V c main_arg10) (V c main_v108) (((cfg7.win 3).blk t).view.emb (ix2 p q))
  have hout : ((cfg7.win 3).blk t).view.emb (ix2 p q) = ix2 (⟨t.val * 10000 + p.val, by omega⟩ : Fin 100000) q := by
    funext a; apply Fin.ext
    match a with
    | ⟨0, _⟩ => show win7_3.index t (0 : Fin 2) * 10000 + 1 * p.val = t.val * 10000 + p.val; omega
    | ⟨1, _⟩ => show win7_3.index t (1 : Fin 2) * 64 + 1 * q.val = q.val; omega
  rw [hout]
  show _ = Cert.Gcn.Body.biased (a := 100000) (b := 64)
    (Host.dotGeneral (F := Ideal) Cert.ReferenceIdeal.dot_S100000x64_S64x64_S100000x64_1_0_0_1_n_n none (V c main_v107) (V c main_arg10)) (V c main_v108) _
  refine entry (iblk7 V c 0 t) (iblk7 V c 1 t) (iblk7 V c 2 t) (V c main_v107) (V c main_arg10) (V c main_v108)
    ⟨t.val * 10000 + p.val, by omega⟩ p q (fun k => ?_) (fun k => ?_) ?_
  · show V c main_v107 (((cfg7.win 0).blk t).view.emb (ix2 p k)) = V c main_v107 (ix2 (⟨t.val * 10000 + p.val, by omega⟩ : Fin 100000) k)
    have h : ((cfg7.win 0).blk t).view.emb (ix2 p k) = ix2 (⟨t.val * 10000 + p.val, by omega⟩ : Fin 100000) k := by
      funext a; apply Fin.ext
      match a with
      | ⟨0, _⟩ => show win7_0.index t (0 : Fin 2) * 10000 + 1 * p.val = t.val * 10000 + p.val; omega
      | ⟨1, _⟩ => show win7_0.index t (1 : Fin 2) * 64 + 1 * k.val = k.val; omega
    rw [h]
  · show V c main_arg10 (((cfg7.win 1).blk t).view.emb (ix2 k q)) = V c main_arg10 (ix2 k q)
    have h : ((cfg7.win 1).blk t).view.emb (ix2 k q) = ix2 k q := by
      funext a; apply Fin.ext
      match a with
      | ⟨0, _⟩ => show win7_1.index t (0 : Fin 2) * 64 + 1 * k.val = k.val; omega
      | ⟨1, _⟩ => show win7_1.index t (1 : Fin 2) * 64 + 1 * q.val = q.val; omega
    rw [h]
  · show V c main_v108 (((cfg7.win 2).blk t).view.emb (ix2 (0 : Fin 1) q)) = V c main_v108 (ix2 (0 : Fin 1) q)
    have h : ((cfg7.win 2).blk t).view.emb (ix2 (0 : Fin 1) q) = ix2 (0 : Fin 1) q := by
      funext a; apply Fin.ext
      match a with
      | ⟨0, _⟩ => show win7_2.index t (0 : Fin 2) * 1 + 1 * 0 = 0; omega
      | ⟨1, _⟩ => show win7_2.index t (1 : Fin 2) * 64 + 1 * q.val = q.val; omega
    rw [h]

/-- An index of the array lies in point `t`'s block iff each coordinate lies in the block's range on its axis. -/
theorem mem_blk (t : Fin cfg7.N) (i : S100000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v109).slice (win7_3.rect t)).set ↔ _
  rw [View.set_slice_whole, Rect.mem_set_unit]
  exact Iff.rfl

/-- The ten blocks tile the array: row `r` lies in block `r / 10000`. -/
theorem cover (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ : ∃ t : Fin cfg7.N, t.val = (i 0).val / 10000 :=
    ⟨⟨(i 0).val / 10000, by show (i 0).val / 10000 < 10; omega⟩, rfl⟩
  obtain ⟨-, -, -, -, -, -, e30, e31⟩ := idx_facts t
  refine ⟨t, flush7_3 t, ?_⟩
  rw [mem_blk]
  intro a
  match a with
  | ⟨0, _⟩ =>
    show win7_3.index t (0 : Fin 2) * 10000 ≤ (i 0).val ∧ (i 0).val < win7_3.index t (0 : Fin 2) * 10000 + 10000
    omega
  | ⟨1, _⟩ =>
    show win7_3.index t (1 : Fin 2) * 64 ≤ (i 1).val ∧ (i 1).val < win7_3.index t (1 : Fin 2) * 64 + 64
    omega

/-- The output array after the region: the dense stage over the region's three arrays, as the region finds them. -/
theorem array (c : Dev nD) :
    (dat7 V c).arrAt 3 cfg7.N = dense (V c main_v107) (V c main_arg10) (V c main_v108) :=
  (dat7 V c).arrAt_eq_of_cover 3 (dense (V c main_v107) (V c main_arg10) (V c main_v108)) (fun t _ => flushed_eq V c t) cover

end Blocks

end Cert.KernelIdeal.Region7

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.Carry.lean ====
/-
  Buffers that pass through the program untouched.  The buffer contents at the fourteen boundaries of the program are a
  fold: a stretch of host operations changes only the buffers its operations write, a kernel region only its output
  array (an array it reads through an input window is left as it was found).  The twelve argument arrays are never
  written, so at every boundary they hold the launch contents; the four arrays the first stretch derives from the
  edge list (source ids, target ids, the inverse root degrees, and their squares as a column) are never written
  again, so at every later boundary they hold what that stretch left.  Each lemma below walks one boundary back.
-/
import proofs.«175292_j50723563765964_1_alg».proof.Proof.Gen.KernelIdeal.Frame
import proofs.«175292_j50723563765964_1_alg».proof.Proof.LibStretch

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- One of the program's twelve argument buffers. -/
def IsArg (b : Ref sig .tc) : Prop :=
  b = main_arg0 ∨ b = main_arg1 ∨ b = main_arg2 ∨ b = main_arg3 ∨ b = main_arg4 ∨ b = main_arg5 ∨ b = main_arg6
    ∨ b = main_arg7 ∨ b = main_arg8 ∨ b = main_arg9 ∨ b = main_arg10 ∨ b = main_arg11

/-- One of the four buffers the first stretch derives from the edge list: the source ids, the target ids, the inverse
    root degrees, and their squares as a column. -/
def IsEdge (b : Ref sig .tc) : Prop := b = main_v1 ∨ b = main_v3 ∨ b = main_v10 ∨ b = main_v12

/-! ## The arguments, one boundary back -/

theorem arg_1 (c : Dev nD) (b : Ref sig .tc) (hb : IsArg b) :
    W1 m ρ c (Proc.devRef .tc b) = W0 m ρ c (Proc.devRef .tc b) := by
  rcases hb with rfl | rfl | rfl | rfl | rfl | rfl | rfl | rfl | rfl | rfl | rfl | rfl <;>
    unwritten hostOps0

theorem arg_2 (c : Dev nD) (b : Ref sig .tc) (hb : IsArg b) :
    W2 m ρ c (Proc.devRef .tc b) = W1 m ρ c (Proc.devRef .tc b) := by
  rcases hb with rfl | rfl | rfl | rfl | rfl | rfl | rfl | rfl | rfl | rfl | rfl | rfl <;> first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem arg_3 (c : Dev nD) (b : Ref sig .tc) (hb : IsArg b) :
    W3 m ρ c (Proc.devRef .tc b) = W2 m ρ c (Proc.devRef .tc b) := by
  rcases hb with rfl | rfl | rfl | rfl | rfl | rfl | rfl | rfl | rfl | rfl | rfl | rfl <;>
    unwritten hostOps1

theorem arg_4 (c : Dev nD) (b : Ref sig .tc) (hb : IsArg b) :
    W4 m ρ c (Proc.devRef .tc b) = W3 m ρ c (Proc.devRef .tc b) := by
  rcases hb with rfl | rfl | rfl | rfl | rfl | rfl | rfl | rfl | rfl | rfl | rfl | rfl <;> first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))

theorem arg_5 (c : Dev nD) (b : Ref sig .tc) (hb : IsArg b) :
    W5 m ρ c (Proc.devRef .tc b) = W4 m ρ c (Proc.devRef .tc b) := by
  rcases hb with rfl | rfl | rfl | rfl | rfl | rfl | rfl | rfl | rfl | rfl | rfl | rfl <;> first
    | exact W5_of_ne m ρ c _ (by decide)
    | exact (W5_arr m ρ c 0).trans (((dat2 (V4 m ρ) c).arrAt_in 0 rfl _).trans (A_eq2 (V4 m ρ) c 0))
    | exact (W5_arr m ρ c 1).trans (((dat2 (V4 m ρ) c).arrAt_in 1 rfl _).trans (A_eq2 (V4 m ρ) c 1))

theorem arg_6 (c : Dev nD) (b : Ref sig .tc) (hb : IsArg b) :
    W6 m ρ c (Proc.devRef .tc b) = W5 m ρ c (Proc.devRef .tc b) := by
  rcases hb with rfl | rfl | rfl | rfl | rfl | rfl | rfl | rfl | rfl | rfl | rfl | rfl <;>
    unwritten hostOps3

theorem arg_7 (c : Dev nD) (b : Ref sig .tc) (hb : IsArg b) :
    W7 m ρ c (Proc.devRef .tc b) = W6 m ρ c (Proc.devRef .tc b) := by
  rcases hb with rfl | rfl | rfl | rfl | rfl | rfl | rfl | rfl | rfl | rfl | rfl | rfl <;> first
    | exact W7_of_ne m ρ c _ (by decide)
    | exact (W7_arr m ρ c 0).trans (((dat3 (V6 m ρ) c).arrAt_in 0 rfl _).trans (A_eq3 (V6 m ρ) c 0))
    | exact (W7_arr m ρ c 1).trans (((dat3 (V6 m ρ) c).arrAt_in 1 rfl _).trans (A_eq3 (V6 m ρ) c 1))
    | exact (W7_arr m ρ c 2).trans (((dat3 (V6 m ρ) c).arrAt_in 2 rfl _).trans (A_eq3 (V6 m ρ) c 2))
    | exact (W7_arr m ρ c 3).trans (((dat3 (V6 m ρ) c).arrAt_in 3 rfl _).trans (A_eq3 (V6 m ρ) c 3))

theorem arg_8 (c : Dev nD) (b : Ref sig .tc) (hb : IsArg b) :
    W8 m ρ c (Proc.devRef .tc b) = W7 m ρ c (Proc.devRef .tc b) := by
  rcases hb with rfl | rfl | rfl | rfl | rfl | rfl | rfl | rfl | rfl | rfl | rfl | rfl <;> first
    | exact W8_of_ne m ρ c _ (by decide)
    | exact (W8_arr m ρ c 0).trans (((dat4 (V7 m ρ) c).arrAt_in 0 rfl _).trans (A_eq4 (V7 m ρ) c 0))
    | exact (W8_arr m ρ c 1).trans (((dat4 (V7 m ρ) c).arrAt_in 1 rfl _).trans (A_eq4 (V7 m ρ) c 1))

theorem arg_9 (c : Dev nD) (b : Ref sig .tc) (hb : IsArg b) :
    W9 m ρ c (Proc.devRef .tc b) = W8 m ρ c (Proc.devRef .tc b) := by
  rcases hb with rfl | rfl | rfl | rfl | rfl | rfl | rfl | rfl | rfl | rfl | rfl | rfl <;>
    unwritten hostOps5

theorem arg_10 (c : Dev nD) (b : Ref sig .tc) (hb : IsArg b) :
    W10 m ρ c (Proc.devRef .tc b) = W9 m ρ c (Proc.devRef .tc b) := by
  rcases hb with rfl | rfl | rfl | rfl | rfl | rfl | rfl | rfl | rfl | rfl | rfl | rfl <;> first
    | exact W10_of_ne m ρ c _ (by decide)
    | exact (W10_arr m ρ c 0).trans (((dat5 (V9 m ρ) c).arrAt_in 0 rfl _).trans (A_eq5 (V9 m ρ) c 0))
    | exact (W10_arr m ρ c 1).trans (((dat5 (V9 m ρ) c).arrAt_in 1 rfl _).trans (A_eq5 (V9 m ρ) c 1))
    | exact (W10_arr m ρ c 2).trans (((dat5 (V9 m ρ) c).arrAt_in 2 rfl _).trans (A_eq5 (V9 m ρ) c 2))
    | exact (W10_arr m ρ c 3).trans (((dat5 (V9 m ρ) c).arrAt_in 3 rfl _).trans (A_eq5 (V9 m ρ) c 3))

theorem arg_11 (c : Dev nD) (b : Ref sig .tc) (hb : IsArg b) :
    W11 m ρ c (Proc.devRef .tc b) = W10 m ρ c (Proc.devRef .tc b) := by
  rcases hb with rfl | rfl | rfl | rfl | rfl | rfl | rfl | rfl | rfl | rfl | rfl | rfl <;>
    unwritten hostOps6

theorem arg_12 (c : Dev nD) (b : Ref sig .tc) (hb : IsArg b) :
    W12 m ρ c (Proc.devRef .tc b) = W11 m ρ c (Proc.devRef .tc b) := by
  rcases hb with rfl | rfl | rfl | rfl | rfl | rfl | rfl | rfl | rfl | rfl | rfl | rfl <;> first
    | exact W12_of_ne m ρ c _ (by decide)
    | exact (W12_arr m ρ c 0).trans (((dat6 (V11 m ρ) c).arrAt_in 0 rfl _).trans (A_eq6 (V11 m ρ) c 0))
    | exact (W12_arr m ρ c 1).trans (((dat6 (V11 m ρ) c).arrAt_in 1 rfl _).trans (A_eq6 (V11 m ρ) c 1))
    | exact (W12_arr m ρ c 2).trans (((dat6 (V11 m ρ) c).arrAt_in 2 rfl _).trans (A_eq6 (V11 m ρ) c 2))

theorem arg_13 (c : Dev nD) (b : Ref sig .tc) (hb : IsArg b) :
    W13 m ρ c (Proc.devRef .tc b) = W12 m ρ c (Proc.devRef .tc b) := by
  rcases hb with rfl | rfl | rfl | rfl | rfl | rfl | rfl | rfl | rfl | rfl | rfl | rfl <;>
    unwritten hostOps7

theorem arg_14 (c : Dev nD) (b : Ref sig .tc) (hb : IsArg b) :
    W14 m ρ c (Proc.devRef .tc b) = W13 m ρ c (Proc.devRef .tc b) := by
  rcases hb with rfl | rfl | rfl | rfl | rfl | rfl | rfl | rfl | rfl | rfl | rfl | rfl <;> first
    | exact W14_of_ne m ρ c _ (by decide)
    | exact (W14_arr m ρ c 0).trans (((dat7 (V13 m ρ) c).arrAt_in 0 rfl _).trans (A_eq7 (V13 m ρ) c 0))
    | exact (W14_arr m ρ c 1).trans (((dat7 (V13 m ρ) c).arrAt_in 1 rfl _).trans (A_eq7 (V13 m ρ) c 1))
    | exact (W14_arr m ρ c 2).trans (((dat7 (V13 m ρ) c).arrAt_in 2 rfl _).trans (A_eq7 (V13 m ρ) c 2))

/-! ## The arguments at each boundary: the launch contents -/

theorem argAt_0 (c : Dev nD) (b : Ref sig .tc) (hb : IsArg b) :
    W0 m ρ c (Proc.devRef .tc b) = m ((c : Thread nD τ).loc b) := rfl
theorem argAt_1 (c : Dev nD) (b : Ref sig .tc) (hb : IsArg b) :
    W1 m ρ c (Proc.devRef .tc b) = m ((c : Thread nD τ).loc b) := (arg_1 m ρ c b hb).trans (argAt_0 m ρ c b hb)
theorem argAt_2 (c : Dev nD) (b : Ref sig .tc) (hb : IsArg b) :
    W2 m ρ c (Proc.devRef .tc b) = m ((c : Thread nD τ).loc b) := (arg_2 m ρ c b hb).trans (argAt_1 m ρ c b hb)
theorem argAt_3 (c : Dev nD) (b : Ref sig .tc) (hb : IsArg b) :
    W3 m ρ c (Proc.devRef .tc b) = m ((c : Thread nD τ).loc b) := (arg_3 m ρ c b hb).trans (argAt_2 m ρ c b hb)
theorem argAt_4 (c : Dev nD) (b : Ref sig .tc) (hb : IsArg b) :
    W4 m ρ c (Proc.devRef .tc b) = m ((c : Thread nD τ).loc b) := (arg_4 m ρ c b hb).trans (argAt_3 m ρ c b hb)
theorem argAt_5 (c : Dev nD) (b : Ref sig .tc) (hb : IsArg b) :
    W5 m ρ c (Proc.devRef .tc b) = m ((c : Thread nD τ).loc b) := (arg_5 m ρ c b hb).trans (argAt_4 m ρ c b hb)
theorem argAt_6 (c : Dev nD) (b : Ref sig .tc) (hb : IsArg b) :
    W6 m ρ c (Proc.devRef .tc b) = m ((c : Thread nD τ).loc b) := (arg_6 m ρ c b hb).trans (argAt_5 m ρ c b hb)
theorem argAt_7 (c : Dev nD) (b : Ref sig .tc) (hb : IsArg b) :
    W7 m ρ c (Proc.devRef .tc b) = m ((c : Thread nD τ).loc b) := (arg_7 m ρ c b hb).trans (argAt_6 m ρ c b hb)
theorem argAt_8 (c : Dev nD) (b : Ref sig .tc) (hb : IsArg b) :
    W8 m ρ c (Proc.devRef .tc b) = m ((c : Thread nD τ).loc b) := (arg_8 m ρ c b hb).trans (argAt_7 m ρ c b hb)
theorem argAt_9 (c : Dev nD) (b : Ref sig .tc) (hb : IsArg b) :
    W9 m ρ c (Proc.devRef .tc b) = m ((c : Thread nD τ).loc b) := (arg_9 m ρ c b hb).trans (argAt_8 m ρ c b hb)
theorem argAt_10 (c : Dev nD) (b : Ref sig .tc) (hb : IsArg b) :
    W10 m ρ c (Proc.devRef .tc b) = m ((c : Thread nD τ).loc b) := (arg_10 m ρ c b hb).trans (argAt_9 m ρ c b hb)
theorem argAt_11 (c : Dev nD) (b : Ref sig .tc) (hb : IsArg b) :
    W11 m ρ c (Proc.devRef .tc b) = m ((c : Thread nD τ).loc b) := (arg_11 m ρ c b hb).trans (argAt_10 m ρ c b hb)
theorem argAt_12 (c : Dev nD) (b : Ref sig .tc) (hb : IsArg b) :
    W12 m ρ c (Proc.devRef .tc b) = m ((c : Thread nD τ).loc b) := (arg_12 m ρ c b hb).trans (argAt_11 m ρ c b hb)
theorem argAt_13 (c : Dev nD) (b : Ref sig .tc) (hb : IsArg b) :
    W13 m ρ c (Proc.devRef .tc b) = m ((c : Thread nD τ).loc b) := (arg_13 m ρ c b hb).trans (argAt_12 m ρ c b hb)

/-! ## The edge-derived buffers, one boundary back (from the second boundary to the ninth) -/

theorem edge_2 (c : Dev nD) (b : Ref sig .tc) (hb : IsEdge b) :
    W2 m ρ c (Proc.devRef .tc b) = W1 m ρ c (Proc.devRef .tc b) := by
  rcases hb with rfl | rfl | rfl | rfl <;> first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem edge_3 (c : Dev nD) (b : Ref sig .tc) (hb : IsEdge b) :
    W3 m ρ c (Proc.devRef .tc b) = W2 m ρ c (Proc.devRef .tc b) := by
  rcases hb with rfl | rfl | rfl | rfl <;>
    unwritten hostOps1

theorem edge_4 (c : Dev nD) (b : Ref sig .tc) (hb : IsEdge b) :
    W4 m ρ c (Proc.devRef .tc b) = W3 m ρ c (Proc.devRef .tc b) := by
  rcases hb with rfl | rfl | rfl | rfl <;> first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))

theorem edge_5 (c : Dev nD) (b : Ref sig .tc) (hb : IsEdge b) :
    W5 m ρ c (Proc.devRef .tc b) = W4 m ρ c (Proc.devRef .tc b) := by
  rcases hb with rfl | rfl | rfl | rfl <;> first
    | exact W5_of_ne m ρ c _ (by decide)
    | exact (W5_arr m ρ c 0).trans (((dat2 (V4 m ρ) c).arrAt_in 0 rfl _).trans (A_eq2 (V4 m ρ) c 0))
    | exact (W5_arr m ρ c 1).trans (((dat2 (V4 m ρ) c).arrAt_in 1 rfl _).trans (A_eq2 (V4 m ρ) c 1))

theorem edge_6 (c : Dev nD) (b : Ref sig .tc) (hb : IsEdge b) :
    W6 m ρ c (Proc.devRef .tc b) = W5 m ρ c (Proc.devRef .tc b) := by
  rcases hb with rfl | rfl | rfl | rfl <;>
    unwritten hostOps3

theorem edge_7 (c : Dev nD) (b : Ref sig .tc) (hb : IsEdge b) :
    W7 m ρ c (Proc.devRef .tc b) = W6 m ρ c (Proc.devRef .tc b) := by
  rcases hb with rfl | rfl | rfl | rfl <;> first
    | exact W7_of_ne m ρ c _ (by decide)
    | exact (W7_arr m ρ c 0).trans (((dat3 (V6 m ρ) c).arrAt_in 0 rfl _).trans (A_eq3 (V6 m ρ) c 0))
    | exact (W7_arr m ρ c 1).trans (((dat3 (V6 m ρ) c).arrAt_in 1 rfl _).trans (A_eq3 (V6 m ρ) c 1))
    | exact (W7_arr m ρ c 2).trans (((dat3 (V6 m ρ) c).arrAt_in 2 rfl _).trans (A_eq3 (V6 m ρ) c 2))
    | exact (W7_arr m ρ c 3).trans (((dat3 (V6 m ρ) c).arrAt_in 3 rfl _).trans (A_eq3 (V6 m ρ) c 3))

theorem edge_8 (c : Dev nD) (b : Ref sig .tc) (hb : IsEdge b) :
    W8 m ρ c (Proc.devRef .tc b) = W7 m ρ c (Proc.devRef .tc b) := by
  rcases hb with rfl | rfl | rfl | rfl <;> first
    | exact W8_of_ne m ρ c _ (by decide)
    | exact (W8_arr m ρ c 0).trans (((dat4 (V7 m ρ) c).arrAt_in 0 rfl _).trans (A_eq4 (V7 m ρ) c 0))
    | exact (W8_arr m ρ c 1).trans (((dat4 (V7 m ρ) c).arrAt_in 1 rfl _).trans (A_eq4 (V7 m ρ) c 1))

theorem edge_9 (c : Dev nD) (b : Ref sig .tc) (hb : IsEdge b) :
    W9 m ρ c (Proc.devRef .tc b) = W8 m ρ c (Proc.devRef .tc b) := by
  rcases hb with rfl | rfl | rfl | rfl <;>
    unwritten hostOps5

/-! ## The edge-derived buffers at each later boundary: what the first stretch left -/

theorem edgeAt_2 (c : Dev nD) (b : Ref sig .tc) (hb : IsEdge b) :
    W2 m ρ c (Proc.devRef .tc b) = W1 m ρ c (Proc.devRef .tc b) := edge_2 m ρ c b hb
theorem edgeAt_3 (c : Dev nD) (b : Ref sig .tc) (hb : IsEdge b) :
    W3 m ρ c (Proc.devRef .tc b) = W1 m ρ c (Proc.devRef .tc b) := (edge_3 m ρ c b hb).trans (edgeAt_2 m ρ c b hb)
theorem edgeAt_4 (c : Dev nD) (b : Ref sig .tc) (hb : IsEdge b) :
    W4 m ρ c (Proc.devRef .tc b) = W1 m ρ c (Proc.devRef .tc b) := (edge_4 m ρ c b hb).trans (edgeAt_3 m ρ c b hb)
theorem edgeAt_5 (c : Dev nD) (b : Ref sig .tc) (hb : IsEdge b) :
    W5 m ρ c (Proc.devRef .tc b) = W1 m ρ c (Proc.devRef .tc b) := (edge_5 m ρ c b hb).trans (edgeAt_4 m ρ c b hb)
theorem edgeAt_6 (c : Dev nD) (b : Ref sig .tc) (hb : IsEdge b) :
    W6 m ρ c (Proc.devRef .tc b) = W1 m ρ c (Proc.devRef .tc b) := (edge_6 m ρ c b hb).trans (edgeAt_5 m ρ c b hb)
theorem edgeAt_7 (c : Dev nD) (b : Ref sig .tc) (hb : IsEdge b) :
    W7 m ρ c (Proc.devRef .tc b) = W1 m ρ c (Proc.devRef .tc b) := (edge_7 m ρ c b hb).trans (edgeAt_6 m ρ c b hb)
theorem edgeAt_8 (c : Dev nD) (b : Ref sig .tc) (hb : IsEdge b) :
    W8 m ρ c (Proc.devRef .tc b) = W1 m ρ c (Proc.devRef .tc b) := (edge_8 m ρ c b hb).trans (edgeAt_7 m ρ c b hb)
theorem edgeAt_9 (c : Dev nD) (b : Ref sig .tc) (hb : IsEdge b) :
    W9 m ρ c (Proc.devRef .tc b) = W1 m ρ c (Proc.devRef .tc b) := (edge_9 m ρ c b hb).trans (edgeAt_8 m ρ c b hb)

/-! ## A region's output passes the next stretch untouched -/

theorem v13_3 (c : Dev nD) : W3 m ρ c (Proc.devRef .tc main_v13) = W2 m ρ c (Proc.devRef .tc main_v13) := by unwritten hostOps1
theorem v44_6 (c : Dev nD) : W6 m ρ c (Proc.devRef .tc main_v44) = W5 m ρ c (Proc.devRef .tc main_v44) := by unwritten hostOps3
theorem v75_9 (c : Dev nD) : W9 m ρ c (Proc.devRef .tc main_v75) = W8 m ρ c (Proc.devRef .tc main_v75) := by unwritten hostOps5
theorem v105_11 (c : Dev nD) : W11 m ρ c (Proc.devRef .tc main_v105) = W10 m ρ c (Proc.devRef .tc main_v105) := by unwritten hostOps6
theorem v107_13 (c : Dev nD) : W13 m ρ c (Proc.devRef .tc main_v107) = W12 m ρ c (Proc.devRef .tc main_v107) := by unwritten hostOps7

end Cert.KernelIdeal.Carry

end
-- ==== Proof.Stretches.lean ====
/-
  The host stretches between the kernel regions, read over ANY buffer contents `V` they are entered with.  The first
  stretch derives from the edge list the source ids, the target ids, the inverse root degrees
  `rsqrt (1 + number of edges into the node)` and their squares as a column: the reference's own first operations,
  so they are stated with the reference's stage functions.  Each stretch before a combine region computes the
  aggregate: the rows of the features gathered at the (wrapped) source ids, each scaled by the product of the two
  ends' inverse root degrees, summed into the rows of the target ids; it is ONE function `aggOf` of the four buffers
  the stretch reads, the same in all three layers.  The other written buffers are a bias vector cast to one row.
-/
import proofs.«175292_j50723563765964_1_alg».proof.Proof.Gen.KernelIdeal.Launch
import proofs.«175292_j50723563765964_1_alg».proof.Proof.Gen.ReferenceIdeal.Read
import proofs.«175292_j50723563765964_1_alg».proof.Proof.LibStretch

set_option maxRecDepth 16384

noncomputable section

namespace Cert.KernelIdeal.Stretches

open Cert.KernelIdeal Cert.KernelIdeal.Gen
open Idealize.ShloMosaic Idealize.ShloMosaic.TcCoe Idealize.ShloMosaic.StableHlo Idealize.SL.Sem
open Cert.ReferenceIdeal.Read (val_main_v1 val_main_v3 val_main_v10 val_main_v40)

/-- A node id wrapped the way array indexing wraps it: a negative id counts from the end. -/
def wrapIdx (idx : (⟨S1000000, .i32⟩ : BufTy).Contents (Elt Ideal)) : (⟨S1000000, .i32⟩ : BufTy).Contents (Elt Ideal) :=
  select (cmpi .slt idx (broadcastInDim S1000000 ![] bcast_S_S1000000 (constantI S_ 32 0#32)))
    (addi idx (broadcastInDim S1000000 ![] bcast_S_S1000000 (constantI S_ 32 100000#32))) idx

/-- One aggregation: the rows of `h` at the wrapped source ids, each scaled by the product of its two ends' inverse root
    degrees, summed into the rows of the target ids, from the zero array. -/
def aggOf (h : (⟨S100000x64, .f32⟩ : BufTy).Contents (Elt Ideal)) (src dst : (⟨S1000000, .i32⟩ : BufTy).Contents (Elt Ideal))
    (dinv : (⟨S100000, .f32⟩ : BufTy).Contents (Elt Ideal)) : (⟨S100000x64, .f32⟩ : BufTy).Contents (Elt Ideal) :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (mulf
      (Host.gather gather_S100000x64_S1000000x1_S1000000x64_1_0_n_n_0_1_164 h
        (broadcastInDim S1000000x1 ![0] bcast_S1000000_S1000000x1_0 (wrapIdx src)))
      (broadcastInDim S1000000x64 ![0, 1] bcast_S1000000x1_S1000000x64_0_1
        (broadcastInDim S1000000x1 ![0] bcast_S1000000_S1000000x1_0
          (mulf
            (Host.gather gather_S100000_S1000000x1_S1000000_n_0_n_n_0_1_1 dinv
              (broadcastInDim S1000000x1 ![0] bcast_S1000000_S1000000x1_0 (wrapIdx src)))
            (Host.gather gather_S100000_S1000000x1_S1000000_n_0_n_n_0_1_1 dinv
              (broadcastInDim S1000000x1 ![0] bcast_S1000000_S1000000x1_0 (wrapIdx dst)))))))

variable (V : Valuation τ sig (Elt Ideal))

/-! ## The first stretch: what it derives from the edge list -/

theorem first_src : after hostOps0 V (Proc.devRef .tc main_v1) = val_main_v1 (F := Ideal) (V (Proc.devRef .tc main_arg1)) := by
  read_stretch_small
theorem first_dst : after hostOps0 V (Proc.devRef .tc main_v3) = val_main_v3 (F := Ideal) (V (Proc.devRef .tc main_arg1)) := by
  read_stretch_small
theorem first_dinv : after hostOps0 V (Proc.devRef .tc main_v10) = val_main_v10 (F := Ideal) (V (Proc.devRef .tc main_arg1)) := by
  read_stretch_small
theorem first_dinvSq : after hostOps0 V (Proc.devRef .tc main_v12)
    = shapeCast S100000x1 (val_main_v40 (F := Ideal) (V (Proc.devRef .tc main_arg1))) shapeCasts_S100000_S100000x1 := by
  read_stretch_small

/-! ## The stretches before the combine regions: the aggregate and the bias row -/

theorem layer1_agg : after hostOps1 V (Proc.devRef .tc main_v41)
    = aggOf (V (Proc.devRef .tc main_v13)) (V (Proc.devRef .tc main_v1)) (V (Proc.devRef .tc main_v3)) (V (Proc.devRef .tc main_v10)) := by
  read_stretch
theorem layer1_bias : after hostOps1 V (Proc.devRef .tc main_v42)
    = shapeCast S1x64 (V (Proc.devRef .tc main_arg3)) shapeCasts_S64_S1x64 := by
  read_stretch

theorem layer2_agg : after hostOps3 V (Proc.devRef .tc main_v72)
    = aggOf (V (Proc.devRef .tc main_v44)) (V (Proc.devRef .tc main_v1)) (V (Proc.devRef .tc main_v3)) (V (Proc.devRef .tc main_v10)) := by
  read_stretch
theorem layer2_bias : after hostOps3 V (Proc.devRef .tc main_v73)
    = shapeCast S1x64 (V (Proc.devRef .tc main_arg5)) shapeCasts_S64_S1x64 := by
  read_stretch

theorem layer3_agg : after hostOps5 V (Proc.devRef .tc main_v103)
    = aggOf (V (Proc.devRef .tc main_v75)) (V (Proc.devRef .tc main_v1)) (V (Proc.devRef .tc main_v3)) (V (Proc.devRef .tc main_v10)) := by
  read_stretch
theorem layer3_bias : after hostOps5 V (Proc.devRef .tc main_v104)
    = shapeCast S1x64 (V (Proc.devRef .tc main_arg7)) shapeCasts_S64_S1x64 := by
  read_stretch

/-! ## The two last stretches: a bias vector cast to one row -/

theorem dense1_bias : after hostOps6 V (Proc.devRef .tc main_v106)
    = shapeCast S1x64 (V (Proc.devRef .tc main_arg9)) shapeCasts_S64_S1x64 := by
  read_stretch_small
theorem dense2_bias : after hostOps7 V (Proc.devRef .tc main_v108)
    = shapeCast S1x64 (V (Proc.devRef .tc main_arg11)) shapeCasts_S64_S1x64 := by
  read_stretch_small

end Cert.KernelIdeal.Stretches

end
-- ==== Proof.Glue.lean ====
/-
  The reference's spelling of the three elementwise stages, as whole arrays.  The kernel's program hands a region the
  squared inverse degrees as a column `[100000, 1]` (a cast of the vector) and a bias as a row `[1, 64]` (a cast of
  the vector), and the region spreads them inside its body; the reference spreads the same vectors over the whole
  array with `broadcast_in_dim` (vector → column → array, vector → row → array) and then adds, multiplies and takes
  the maximum with the zero splat.  Entry by entry the two are the same expression of the same entries.
-/
import proofs.«175292_j50723563765964_1_alg».proof.Proof.Gen.KernelIdeal
import proofs.«175292_j50723563765964_1_alg».proof.Proof.Gen.ReferenceIdeal.Read
import proofs.«175292_j50723563765964_1_alg».proof.Proof.LibGcnBody

noncomputable section

namespace Cert.Gcn.Glue

open Idealize.ShloMosaic Idealize.ShloMosaic.ValueIdx Idealize.ShloMosaic.TcCoe

/-- A vector of 100000 entries spread to a column and then along the rows reads, at `(p, q)`, its entry `p`. -/
theorem spreadCol_apply (dd : FVec Ideal Cert.ReferenceIdeal.S100000 .f32) (p : Fin 100000) (q : Fin 64) :
    broadcastInDim Cert.ReferenceIdeal.S100000x64 ![0, 1] Cert.ReferenceIdeal.Facts₀.bcast_S100000x1_S100000x64_0_1
      (broadcastInDim Cert.ReferenceIdeal.S100000x1 ![0] Cert.ReferenceIdeal.Facts₀.bcast_S100000_S100000x1_0 dd) (ix2 p q) = dd (ix1 p) := by
  rw [broadcastInDim_apply _ Cert.ReferenceIdeal.Facts₀.bcast_S100000x1_S100000x64_0_1 _ (ix2 p q) (ix2 p (0 : Fin 1)) (fun a => match a with
      | ⟨0, _⟩ => by show p.val = if (100000 : Nat) = 1 then 0 else p.val; rw [if_neg (by decide)]
      | ⟨1, _⟩ => by show 0 = if (1 : Nat) = 1 then 0 else q.val; rw [if_pos rfl]),
    broadcastInDim_apply _ Cert.ReferenceIdeal.Facts₀.bcast_S100000_S100000x1_0 dd (ix2 p (0 : Fin 1)) (ix1 p) (fun a => match a with
      | ⟨0, _⟩ => by show p.val = if (100000 : Nat) = 1 then 0 else p.val; rw [if_neg (by decide)])]

/-- A vector of 64 entries spread to a row and then along the columns reads, at `(p, q)`, its entry `q`. -/
theorem spreadRow_apply (bb : FVec Ideal Cert.ReferenceIdeal.S64 .f32) (p : Fin 100000) (q : Fin 64) :
    broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 bb) (ix2 p q) = bb (ix1 q) := by
  rw [broadcastInDim_apply _ Cert.ReferenceIdeal.Facts₀.bcast_S1x64_S100000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)]),
    broadcastInDim_apply _ Cert.ReferenceIdeal.Facts₀.bcast_S64_S1x64_1 bb (ix2 (0 : Fin 1) q) (ix1 q) (fun a => match a with
      | ⟨0, _⟩ => by show q.val = if (64 : Nat) = 1 then 0 else q.val; rw [if_neg (by decide)])]

/-- The zero splat reads the zero word at every entry. -/
theorem zeroSplat_apply (i : Cert.ReferenceIdeal.S100000x64.Idx) :
    broadcastInDim Cert.ReferenceIdeal.S100000x64 ![] Cert.ReferenceIdeal.Facts₀.bcast_S_S100000x64
      (constant (F := Ideal) Cert.ReferenceIdeal.S_ .f32 0x00000000#32) i = Ideal.ofBits .f32 0x00000000#32 :=
  broadcastInDim_apply _ Cert.ReferenceIdeal.Facts₀.bcast_S_S100000x64 _ i (fun a => a.elim0) (fun a => a.elim0)

/-- The combine stage: the region's function of the aggregate, the features, the column of squared inverse degrees and
    the bias row is the reference's sum, product and maximum over the spread vectors. -/
theorem combined_eq (A H : FVec Ideal Cert.ReferenceIdeal.S100000x64 .f32) (dd : FVec Ideal Cert.ReferenceIdeal.S100000 .f32)
    (bb : FVec Ideal Cert.ReferenceIdeal.S64 .f32) :
    Cert.Gcn.Body.combined (a := 100000) (b := 64) A H
        (shapeCast Cert.KernelIdeal.S100000x1 dd Cert.KernelIdeal.Facts₀.shapeCasts_S100000_S100000x1)
        (shapeCast Cert.KernelIdeal.S1x64 bb Cert.KernelIdeal.Facts₀.shapeCasts_S64_S1x64)
      = maximumf (addf (addf A (mulf H
            (broadcastInDim Cert.ReferenceIdeal.S100000x64 ![0, 1] Cert.ReferenceIdeal.Facts₀.bcast_S100000x1_S100000x64_0_1
              (broadcastInDim Cert.ReferenceIdeal.S100000x1 ![0] Cert.ReferenceIdeal.Facts₀.bcast_S100000_S100000x1_0 dd))))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 bb)))
        (broadcastInDim Cert.ReferenceIdeal.S100000x64 ![] Cert.ReferenceIdeal.Facts₀.bcast_S_S100000x64
          (constant (F := Ideal) Cert.ReferenceIdeal.S_ .f32 0x00000000#32)) := by
  funext i
  obtain ⟨p, q, rfl⟩ : ∃ (p : Fin 100000) (q : Fin 64), i = ix2 p q := ⟨i 0, i 1, eq_ix2 i⟩
  rw [Cert.Gcn.Body.combined_ix2, Cert.Attn.Layout.shapeCast_a_a1_apply, Cert.Gcn.Body.shapeCast_b_1b_apply,
    maximumf_apply, addf_apply, addf_apply, mulf_apply, spreadCol_apply, spreadRow_apply, zeroSplat_apply]

/-- A bias row added: the reference adds the vector spread over the whole array. -/
theorem biased_eq (Y : FVec Ideal Cert.ReferenceIdeal.S100000x64 .f32) (bb : FVec Ideal Cert.ReferenceIdeal.S64 .f32) :
    Cert.Gcn.Body.biased (a := 100000) (b := 64) Y (shapeCast Cert.KernelIdeal.S1x64 bb Cert.KernelIdeal.Facts₀.shapeCasts_S64_S1x64)
      = addf Y (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 bb)) := by
  funext i
  obtain ⟨p, q, rfl⟩ : ∃ (p : Fin 100000) (q : Fin 64), i = ix2 p q := ⟨i 0, i 1, eq_ix2 i⟩
  rw [Cert.Gcn.Body.biased_ix2, Cert.Gcn.Body.shapeCast_b_1b_apply, addf_apply, spreadRow_apply]

/-- A bias row added and the sum cut below at 0: the reference's maximum with the zero splat. -/
theorem biasedRelu_eq (Y : FVec Ideal Cert.ReferenceIdeal.S100000x64 .f32) (bb : FVec Ideal Cert.ReferenceIdeal.S64 .f32) :
    Cert.Gcn.Body.biasedRelu (a := 100000) (b := 64) Y (shapeCast Cert.KernelIdeal.S1x64 bb Cert.KernelIdeal.Facts₀.shapeCasts_S64_S1x64)
      = maximumf (addf Y (broadcastInDim Cert.ReferenceIdeal.S100000x64 ![0, 1] Cert.ReferenceIdeal.Facts₀.bcast_S1x64_S100000x64_0_1
          (broadcastInDim Cert.ReferenceIdeal.S1x64 ![1] Cert.ReferenceIdeal.Facts₀.bcast_S64_S1x64_1 bb)))
        (broadcastInDim Cert.ReferenceIdeal.S100000x64 ![] Cert.ReferenceIdeal.Facts₀.bcast_S_S100000x64
          (constant (F := Ideal) Cert.ReferenceIdeal.S_ .f32 0x00000000#32)) := by
  funext i
  obtain ⟨p, q, rfl⟩ : ∃ (p : Fin 100000) (q : Fin 64), i = ix2 p q := ⟨i 0, i 1, eq_ix2 i⟩
  rw [Cert.Gcn.Body.biasedRelu_ix2, Cert.Gcn.Body.shapeCast_b_1b_apply, maximumf_apply, addf_apply, spreadRow_apply, zeroSplat_apply]

end Cert.Gcn.Glue

end
-- ==== Proof.Stages.lean ====
/-
  The reference's stage functions met by the functions the kernel's regions and stretches are stated with.  Each
  stage function is a short composition of the reference's operations over earlier stages; unfolded to those operations
  it is, symbol by symbol, the aggregate `aggOf` of the layer's features (the three aggregation stretches), the
  combine step over the layer's aggregate, features, squared inverse degrees and bias (the three combine regions), or
  the host's product with the bias row added, cut below at 0 or not (the two dense regions).
-/
import proofs.«175292_j50723563765964_1_alg».proof.Proof.Stretches
import proofs.«175292_j50723563765964_1_alg».proof.Proof.Glue

set_option maxRecDepth 16384

noncomputable section

namespace Cert.Gcn.Stages

open Cert.KernelIdeal.Stretches Idealize.ShloMosaic Idealize.ShloMosaic.TcCoe
open Cert.ReferenceIdeal.Read

/-! ## The three aggregates -/

theorem agg1 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) :
    aggOf (val_main_v11 (F := Ideal) x0 x2) (val_main_v1 (F := Ideal) x1) (val_main_v3 (F := Ideal) x1) (val_main_v10 (F := Ideal) x1)
      = val_main_v39 (F := Ideal) x0 x1 x2 := by
  unfold aggOf wrapIdx val_main_v39 val_main_v37 val_main_cst_7 val_main_v38 val_main_v36 val_main_v33 val_main_v32 val_main_v31 val_main_v28 val_main_v27 val_main_c_5 val_main_v30 val_main_v29 val_main_c_6 val_main_v35 val_main_v34 val_main_v26 val_main_v18 val_main_v17 val_main_v16 val_main_v13 val_main_v12 val_main_c val_main_v15 val_main_v14 val_main_c_2 val_main_v25 val_main_v24 val_main_v23 val_main_v20 val_main_v19 val_main_c_3 val_main_v22 val_main_v21 val_main_c_4
  rfl

theorem agg2 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) :
    aggOf (val_main_v49 (F := Ideal) x0 x1 x2 x3 x4) (val_main_v1 (F := Ideal) x1) (val_main_v3 (F := Ideal) x1) (val_main_v10 (F := Ideal) x1)
      = val_main_v77 (F := Ideal) x0 x1 x2 x3 x4 := by
  unfold aggOf wrapIdx val_main_v77 val_main_v75 val_main_cst_14 val_main_v76 val_main_v74 val_main_v71 val_main_v70 val_main_v69 val_main_v66 val_main_v65 val_main_c_12 val_main_v68 val_main_v67 val_main_c_13 val_main_v73 val_main_v72 val_main_v64 val_main_v56 val_main_v55 val_main_v54 val_main_v51 val_main_v50 val_main_c_8 val_main_v53 val_main_v52 val_main_c_9 val_main_v63 val_main_v62 val_main_v61 val_main_v58 val_main_v57 val_main_c_10 val_main_v60 val_main_v59 val_main_c_11
  rfl

theorem agg3 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) :
    aggOf (val_main_v87 (F := Ideal) x0 x1 x2 x3 x4 x5 x6) (val_main_v1 (F := Ideal) x1) (val_main_v3 (F := Ideal) x1) (val_main_v10 (F := Ideal) x1)
      = val_main_v115 (F := Ideal) x0 x1 x2 x3 x4 x5 x6 := by
  unfold aggOf wrapIdx val_main_v115 val_main_v113 val_main_cst_21 val_main_v114 val_main_v112 val_main_v109 val_main_v108 val_main_v107 val_main_v104 val_main_v103 val_main_c_19 val_main_v106 val_main_v105 val_main_c_20 val_main_v111 val_main_v110 val_main_v102 val_main_v94 val_main_v93 val_main_v92 val_main_v89 val_main_v88 val_main_c_15 val_main_v91 val_main_v90 val_main_c_16 val_main_v101 val_main_v100 val_main_v99 val_main_v96 val_main_v95 val_main_c_17 val_main_v98 val_main_v97 val_main_c_18
  rfl

/-! ## The three combine steps -/

theorem combine1 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) :
    Cert.Gcn.Body.combined (a := 100000) (b := 64) (val_main_v39 (F := Ideal) x0 x1 x2) (val_main_v11 (F := Ideal) x0 x2)
        (shapeCast Cert.KernelIdeal.S100000x1 (val_main_v40 (F := Ideal) x1) Cert.KernelIdeal.Facts₀.shapeCasts_S100000_S100000x1) (shapeCast Cert.KernelIdeal.S1x64 x3 Cert.KernelIdeal.Facts₀.shapeCasts_S64_S1x64)
      = val_main_v48 (F := Ideal) x0 x1 x2 x3 := by
  refine (Cert.Gcn.Glue.combined_eq _ _ _ _).trans ?_
  unfold val_main_v48 val_main_v47 val_main_v44 val_main_v43 val_main_v42 val_main_v41 val_main_v40 val_main_v46 val_main_v45 val_main_call0_v0 val_main_call0_cst
  rfl

theorem combine2 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) :
    Cert.Gcn.Body.combined (a := 100000) (b := 64) (val_main_v77 (F := Ideal) x0 x1 x2 x3 x4) (val_main_v49 (F := Ideal) x0 x1 x2 x3 x4)
        (shapeCast Cert.KernelIdeal.S100000x1 (val_main_v40 (F := Ideal) x1) Cert.KernelIdeal.Facts₀.shapeCasts_S100000_S100000x1) (shapeCast Cert.KernelIdeal.S1x64 x5 Cert.KernelIdeal.Facts₀.shapeCasts_S64_S1x64)
      = val_main_v86 (F := Ideal) x0 x1 x2 x3 x4 x5 := by
  refine (Cert.Gcn.Glue.combined_eq _ _ _ _).trans ?_
  unfold val_main_v86 val_main_v85 val_main_v82 val_main_v81 val_main_v80 val_main_v79 val_main_v78 val_main_v40 val_main_v84 val_main_v83 val_main_call1_v0 val_main_call1_cst
  rfl

theorem combine3 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) :
    Cert.Gcn.Body.combined (a := 100000) (b := 64) (val_main_v115 (F := Ideal) x0 x1 x2 x3 x4 x5 x6) (val_main_v87 (F := Ideal) x0 x1 x2 x3 x4 x5 x6)
        (shapeCast Cert.KernelIdeal.S100000x1 (val_main_v40 (F := Ideal) x1) Cert.KernelIdeal.Facts₀.shapeCasts_S100000_S100000x1) (shapeCast Cert.KernelIdeal.S1x64 x7 Cert.KernelIdeal.Facts₀.shapeCasts_S64_S1x64)
      = val_main_v124 (F := Ideal) x0 x1 x2 x3 x4 x5 x6 x7 := by
  refine (Cert.Gcn.Glue.combined_eq _ _ _ _).trans ?_
  unfold val_main_v124 val_main_v123 val_main_v120 val_main_v119 val_main_v118 val_main_v117 val_main_v116 val_main_v40 val_main_v122 val_main_v121 val_main_call2_v0 val_main_call2_cst
  rfl

/-! ## The two dense stages -/

theorem dense1 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) :
    Cert.Gcn.Body.biasedRelu (a := 100000) (b := 64)
        (Host.dotGeneral (F := Ideal) (φ₁ := .f32) (φ₂ := .f32) Cert.ReferenceIdeal.dot_S100000x64_S64x64_S100000x64_1_0_0_1_n_n none (val_main_v124 (F := Ideal) x0 x1 x2 x3 x4 x5 x6 x7) x8)
        (shapeCast Cert.KernelIdeal.S1x64 x9 Cert.KernelIdeal.Facts₀.shapeCasts_S64_S1x64)
      = val_main_v129 (F := Ideal) x0 x1 x2 x3 x4 x5 x6 x7 x8 x9 := by
  refine (Cert.Gcn.Glue.biasedRelu_eq _ _).trans ?_
  unfold val_main_v129 val_main_v128 val_main_v125 val_main_v127 val_main_v126 val_main_call3_v0 val_main_call3_cst
  rfl

theorem dense2 (x0 : (⟨Cert.ReferenceIdeal.S100000x64, .f32⟩ : BufTy).Contents (Elt Ideal)) (x1 : (⟨Cert.ReferenceIdeal.S2x1000000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S64x64, .f32⟩ : BufTy).Contents (Elt Ideal)) (x11 : (⟨Cert.ReferenceIdeal.S64, .f32⟩ : BufTy).Contents (Elt Ideal)) :
    Cert.Gcn.Body.biased (a := 100000) (b := 64)
        (Host.dotGeneral (F := Ideal) (φ₁ := .f32) (φ₂ := .f32) Cert.ReferenceIdeal.dot_S100000x64_S64x64_S100000x64_1_0_0_1_n_n none (val_main_v129 (F := Ideal) x0 x1 x2 x3 x4 x5 x6 x7 x8 x9) x10)
        (shapeCast Cert.KernelIdeal.S1x64 x11 Cert.KernelIdeal.Facts₀.shapeCasts_S64_S1x64)
      = val_main_v133 (F := Ideal) x0 x1 x2 x3 x4 x5 x6 x7 x8 x9 x10 x11 := by
  refine (Cert.Gcn.Glue.biased_eq _ _).trans ?_
  unfold val_main_v133 val_main_v130 val_main_v132 val_main_v131
  rfl

end Cert.Gcn.Stages

end
-- ==== Proof.Chain.lean ====
/-
  The kernel's program read from the launch to the return.  At each of the fourteen boundaries the buffers that later
  segments read are named with the reference's own stage functions of the twelve argument arrays: after the first
  stretch the edge-derived buffers; after a linear region the product with that layer's weight; after an aggregation
  stretch the aggregate of those features; after a combine region the layer's output (the aggregate plus the node's own
  features scaled by its squared inverse degree, plus the bias, cut below at 0); after the two dense regions the two
  dense stages.  A region contributes its output array as one whole-array function of the arrays it is entered with, a
  stretch the operations' term of the buffers it reads; an untouched buffer is carried.  The last line is the result.
-/
import proofs.«175292_j50723563765964_1_alg».proof.Proof.Gen.KernelIdeal.Frame
import proofs.«175292_j50723563765964_1_alg».proof.Proof.Gen.ReferenceIdeal.Read
import proofs.«175292_j50723563765964_1_alg».proof.Proof.Region0
import proofs.«175292_j50723563765964_1_alg».proof.Proof.Region1
import proofs.«175292_j50723563765964_1_alg».proof.Proof.Region2
import proofs.«175292_j50723563765964_1_alg».proof.Proof.Region3
import proofs.«175292_j50723563765964_1_alg».proof.Proof.Region4
import proofs.«175292_j50723563765964_1_alg».proof.Proof.Region5
import proofs.«175292_j50723563765964_1_alg».proof.Proof.Region6
import proofs.«175292_j50723563765964_1_alg».proof.Proof.Region7
import proofs.«175292_j50723563765964_1_alg».proof.Proof.Carry
import proofs.«175292_j50723563765964_1_alg».proof.Proof.Stretches
import proofs.«175292_j50723563765964_1_alg».proof.Proof.Glue
import proofs.«175292_j50723563765964_1_alg».proof.Proof.Stages

set_option maxRecDepth 16384

noncomputable section

namespace Cert.KernelIdeal.Chain

open Cert.KernelIdeal Cert.KernelIdeal.Gen Cert.KernelIdeal.Carry Cert.KernelIdeal.Stretches
open Idealize.ShloMosaic Idealize.ShloMosaic.TcCoe Idealize.SL.Sem
open Cert.ReferenceIdeal.Read

/-! ## Which buffers are arguments, which are edge-derived -/

theorem isArg0 : IsArg main_arg0 := Or.inl rfl
theorem isArg1 : IsArg main_arg1 := Or.inr (Or.inl rfl)
theorem isArg2 : IsArg main_arg2 := Or.inr (Or.inr (Or.inl rfl))
theorem isArg3 : IsArg main_arg3 := Or.inr (Or.inr (Or.inr (Or.inl rfl)))
theorem isArg4 : IsArg main_arg4 := Or.inr (Or.inr (Or.inr (Or.inr (Or.inl rfl))))
theorem isArg5 : IsArg main_arg5 := Or.inr (Or.inr (Or.inr (Or.inr (Or.inr (Or.inl rfl)))))
theorem isArg6 : IsArg main_arg6 := Or.inr (Or.inr (Or.inr (Or.inr (Or.inr (Or.inr (Or.inl rfl))))))
theorem isArg7 : IsArg main_arg7 := Or.inr (Or.inr (Or.inr (Or.inr (Or.inr (Or.inr (Or.inr (Or.inl rfl)))))))
theorem isArg8 : IsArg main_arg8 := Or.inr (Or.inr (Or.inr (Or.inr (Or.inr (Or.inr (Or.inr (Or.inr (Or.inl rfl))))))))
theorem isArg9 : IsArg main_arg9 := Or.inr (Or.inr (Or.inr (Or.inr (Or.inr (Or.inr (Or.inr (Or.inr (Or.inr (Or.inl rfl)))))))))
theorem isArg10 : IsArg main_arg10 := Or.inr (Or.inr (Or.inr (Or.inr (Or.inr (Or.inr (Or.inr (Or.inr (Or.inr (Or.inr (Or.inl rfl))))))))))
theorem isArg11 : IsArg main_arg11 := Or.inr (Or.inr (Or.inr (Or.inr (Or.inr (Or.inr (Or.inr (Or.inr (Or.inr (Or.inr (Or.inr (rfl)))))))))))
theorem isEdgeSrc : IsEdge main_v1 := Or.inl rfl
theorem isEdgeDst : IsEdge main_v3 := Or.inr (Or.inl rfl)
theorem isEdgeDinv : IsEdge main_v10 := Or.inr (Or.inr (Or.inl rfl))
theorem isEdgeDinvSq : IsEdge main_v12 := Or.inr (Or.inr (Or.inr rfl))

variable (m : (ℓ : Loc nD τ sig) → Buf (Elt Ideal) ℓ) (ρ : Dev nD → PrngReg) (c : Dev nD)

/-- The launch contents of argument buffer `b` on core `c`. -/
abbrev arg (b : Ref sig .tc) : Buf (Elt Ideal) ((c : Thread nD τ).loc b) := m ((c : Thread nD τ).loc b)

/-! ## After the first stretch: the edge-derived buffers -/

theorem src_1 : W1 m ρ c (Proc.devRef .tc main_v1) = val_main_v1 (F := Ideal) (arg m c main_arg1) := first_src (W0 m ρ c)
theorem dst_1 : W1 m ρ c (Proc.devRef .tc main_v3) = val_main_v3 (F := Ideal) (arg m c main_arg1) := first_dst (W0 m ρ c)
theorem dinv_1 : W1 m ρ c (Proc.devRef .tc main_v10) = val_main_v10 (F := Ideal) (arg m c main_arg1) := first_dinv (W0 m ρ c)
theorem dsq_1 : W1 m ρ c (Proc.devRef .tc main_v12)
    = shapeCast S100000x1 (val_main_v40 (F := Ideal) (arg m c main_arg1)) shapeCasts_S100000_S100000x1 := first_dinvSq (W0 m ρ c)

theorem src_2 : W2 m ρ c (Proc.devRef .tc main_v1) = val_main_v1 (F := Ideal) (arg m c main_arg1) := (edgeAt_2 m ρ c main_v1 isEdgeSrc).trans (src_1 m ρ c)
theorem dst_2 : W2 m ρ c (Proc.devRef .tc main_v3) = val_main_v3 (F := Ideal) (arg m c main_arg1) := (edgeAt_2 m ρ c main_v3 isEdgeDst).trans (dst_1 m ρ c)
theorem dinv_2 : W2 m ρ c (Proc.devRef .tc main_v10) = val_main_v10 (F := Ideal) (arg m c main_arg1) := (edgeAt_2 m ρ c main_v10 isEdgeDinv).trans (dinv_1 m ρ c)
theorem src_5 : W5 m ρ c (Proc.devRef .tc main_v1) = val_main_v1 (F := Ideal) (arg m c main_arg1) := (edgeAt_5 m ρ c main_v1 isEdgeSrc).trans (src_1 m ρ c)
theorem dst_5 : W5 m ρ c (Proc.devRef .tc main_v3) = val_main_v3 (F := Ideal) (arg m c main_arg1) := (edgeAt_5 m ρ c main_v3 isEdgeDst).trans (dst_1 m ρ c)
theorem dinv_5 : W5 m ρ c (Proc.devRef .tc main_v10) = val_main_v10 (F := Ideal) (arg m c main_arg1) := (edgeAt_5 m ρ c main_v10 isEdgeDinv).trans (dinv_1 m ρ c)
theorem src_8 : W8 m ρ c (Proc.devRef .tc main_v1) = val_main_v1 (F := Ideal) (arg m c main_arg1) := (edgeAt_8 m ρ c main_v1 isEdgeSrc).trans (src_1 m ρ c)
theorem dst_8 : W8 m ρ c (Proc.devRef .tc main_v3) = val_main_v3 (F := Ideal) (arg m c main_arg1) := (edgeAt_8 m ρ c main_v3 isEdgeDst).trans (dst_1 m ρ c)
theorem dinv_8 : W8 m ρ c (Proc.devRef .tc main_v10) = val_main_v10 (F := Ideal) (arg m c main_arg1) := (edgeAt_8 m ρ c main_v10 isEdgeDinv).trans (dinv_1 m ρ c)
theorem dsq_3 : W3 m ρ c (Proc.devRef .tc main_v12)
    = shapeCast S100000x1 (val_main_v40 (F := Ideal) (arg m c main_arg1)) shapeCasts_S100000_S100000x1 := (edgeAt_3 m ρ c main_v12 isEdgeDinvSq).trans (dsq_1 m ρ c)
theorem dsq_6 : W6 m ρ c (Proc.devRef .tc main_v12)
    = shapeCast S100000x1 (val_main_v40 (F := Ideal) (arg m c main_arg1)) shapeCasts_S100000_S100000x1 := (edgeAt_6 m ρ c main_v12 isEdgeDinvSq).trans (dsq_1 m ρ c)
theorem dsq_9 : W9 m ρ c (Proc.devRef .tc main_v12)
    = shapeCast S100000x1 (val_main_v40 (F := Ideal) (arg m c main_arg1)) shapeCasts_S100000_S100000x1 := (edgeAt_9 m ρ c main_v12 isEdgeDinvSq).trans (dsq_1 m ρ c)

/-! ## The first layer -/

/-- Region 0: the features times the first weight. -/
theorem feat1 : W2 m ρ c (Proc.devRef .tc main_v13) = val_main_v11 (F := Ideal) (arg m c main_arg0) (arg m c main_arg2) := by
  refine (W2_arr m ρ c 2).trans ((Region0.array (V1 m ρ) c).trans ?_)
  show Region0.product (W1 m ρ c (Proc.devRef .tc main_arg0)) (W1 m ρ c (Proc.devRef .tc main_arg2)) = _
  rw [argAt_1 m ρ c main_arg0 isArg0, argAt_1 m ρ c main_arg2 isArg2]
  rfl
theorem feat1_3 : W3 m ρ c (Proc.devRef .tc main_v13) = val_main_v11 (F := Ideal) (arg m c main_arg0) (arg m c main_arg2) := (v13_3 m ρ c).trans (feat1 m ρ c)

/-- The aggregate of the first layer's features. -/
theorem agg1 : W3 m ρ c (Proc.devRef .tc main_v41) = val_main_v39 (F := Ideal) (arg m c main_arg0) (arg m c main_arg1) (arg m c main_arg2) := by
  refine (layer1_agg (W2 m ρ c)).trans ?_
  rw [feat1 m ρ c, src_2 m ρ c, dst_2 m ρ c, dinv_2 m ρ c]
  exact Cert.Gcn.Stages.agg1 _ _ _
theorem bias1 : W3 m ρ c (Proc.devRef .tc main_v42) = shapeCast S1x64 (arg m c main_arg3) shapeCasts_S64_S1x64 := by
  refine (layer1_bias (W2 m ρ c)).trans ?_
  rw [argAt_2 m ρ c main_arg3 isArg3]

/-- Region 1: the first layer's output. -/
theorem out1 : W4 m ρ c (Proc.devRef .tc main_v43) = val_main_v48 (F := Ideal) (arg m c main_arg0) (arg m c main_arg1) (arg m c main_arg2) (arg m c main_arg3) := by
  refine (W4_arr m ρ c 4).trans ((Region1.array (V3 m ρ) c).trans ?_)
  show Region1.merged (W3 m ρ c (Proc.devRef .tc main_v41)) (W3 m ρ c (Proc.devRef .tc main_v13))
    (W3 m ρ c (Proc.devRef .tc main_v12)) (W3 m ρ c (Proc.devRef .tc main_v42)) = _
  rw [agg1 m ρ c, feat1_3 m ρ c, dsq_3 m ρ c, bias1 m ρ c]
  exact Cert.Gcn.Stages.combine1 _ _ _ _

/-! ## The second layer -/

/-- Region 2: the first layer's output times the second weight. -/
theorem feat2 : W5 m ρ c (Proc.devRef .tc main_v44) = val_main_v49 (F := Ideal) (arg m c main_arg0) (arg m c main_arg1) (arg m c main_arg2) (arg m c main_arg3) (arg m c main_arg4) := by
  refine (W5_arr m ρ c 2).trans ((Region2.array (V4 m ρ) c).trans ?_)
  show Region2.product (W4 m ρ c (Proc.devRef .tc main_v43)) (W4 m ρ c (Proc.devRef .tc main_arg4)) = _
  rw [out1 m ρ c, argAt_4 m ρ c main_arg4 isArg4]
  rfl
theorem feat2_6 : W6 m ρ c (Proc.devRef .tc main_v44) = val_main_v49 (F := Ideal) (arg m c main_arg0) (arg m c main_arg1) (arg m c main_arg2) (arg m c main_arg3) (arg m c main_arg4) := (v44_6 m ρ c).trans (feat2 m ρ c)

theorem agg2 : W6 m ρ c (Proc.devRef .tc main_v72) = val_main_v77 (F := Ideal) (arg m c main_arg0) (arg m c main_arg1) (arg m c main_arg2) (arg m c main_arg3) (arg m c main_arg4) := by
  refine (layer2_agg (W5 m ρ c)).trans ?_
  rw [feat2 m ρ c, src_5 m ρ c, dst_5 m ρ c, dinv_5 m ρ c]
  exact Cert.Gcn.Stages.agg2 _ _ _ _ _
theorem bias2 : W6 m ρ c (Proc.devRef .tc main_v73) = shapeCast S1x64 (arg m c main_arg5) shapeCasts_S64_S1x64 := by
  refine (layer2_bias (W5 m ρ c)).trans ?_
  rw [argAt_5 m ρ c main_arg5 isArg5]

/-- Region 3: the second layer's output. -/
theorem out2 : W7 m ρ c (Proc.devRef .tc main_v74) = val_main_v86 (F := Ideal) (arg m c main_arg0) (arg m c main_arg1) (arg m c main_arg2) (arg m c main_arg3) (arg m c main_arg4) (arg m c main_arg5) := by
  refine (W7_arr m ρ c 4).trans ((Region3.array (V6 m ρ) c).trans ?_)
  show Region3.merged (W6 m ρ c (Proc.devRef .tc main_v72)) (W6 m ρ c (Proc.devRef .tc main_v44))
    (W6 m ρ c (Proc.devRef .tc main_v12)) (W6 m ρ c (Proc.devRef .tc main_v73)) = _
  rw [agg2 m ρ c, feat2_6 m ρ c, dsq_6 m ρ c, bias2 m ρ c]
  exact Cert.Gcn.Stages.combine2 _ _ _ _ _ _

/-! ## The third layer -/

/-- Region 4: the second layer's output times the third weight. -/
theorem feat3 : W8 m ρ c (Proc.devRef .tc main_v75) = val_main_v87 (F := Ideal) (arg m c main_arg0) (arg m c main_arg1) (arg m c main_arg2) (arg m c main_arg3) (arg m c main_arg4) (arg m c main_arg5) (arg m c main_arg6) := by
  refine (W8_arr m ρ c 2).trans ((Region4.array (V7 m ρ) c).trans ?_)
  show Region4.product (W7 m ρ c (Proc.devRef .tc main_v74)) (W7 m ρ c (Proc.devRef .tc main_arg6)) = _
  rw [out2 m ρ c, argAt_7 m ρ c main_arg6 isArg6]
  rfl
theorem feat3_9 : W9 m ρ c (Proc.devRef .tc main_v75) = val_main_v87 (F := Ideal) (arg m c main_arg0) (arg m c main_arg1) (arg m c main_arg2) (arg m c main_arg3) (arg m c main_arg4) (arg m c main_arg5) (arg m c main_arg6) := (v75_9 m ρ c).trans (feat3 m ρ c)

theorem agg3 : W9 m ρ c (Proc.devRef .tc main_v103) = val_main_v115 (F := Ideal) (arg m c main_arg0) (arg m c main_arg1) (arg m c main_arg2) (arg m c main_arg3) (arg m c main_arg4) (arg m c main_arg5) (arg m c main_arg6) := by
  refine (layer3_agg (W8 m ρ c)).trans ?_
  rw [feat3 m ρ c, src_8 m ρ c, dst_8 m ρ c, dinv_8 m ρ c]
  exact Cert.Gcn.Stages.agg3 _ _ _ _ _ _ _
theorem bias3 : W9 m ρ c (Proc.devRef .tc main_v104) = shapeCast S1x64 (arg m c main_arg7) shapeCasts_S64_S1x64 := by
  refine (layer3_bias (W8 m ρ c)).trans ?_
  rw [argAt_8 m ρ c main_arg7 isArg7]

/-- Region 5: the third layer's output. -/
theorem out3 : W10 m ρ c (Proc.devRef .tc main_v105) = val_main_v124 (F := Ideal) (arg m c main_arg0) (arg m c main_arg1) (arg m c main_arg2) (arg m c main_arg3) (arg m c main_arg4) (arg m c main_arg5) (arg m c main_arg6) (arg m c main_arg7) := by
  refine (W10_arr m ρ c 4).trans ((Region5.array (V9 m ρ) c).trans ?_)
  show Region5.merged (W9 m ρ c (Proc.devRef .tc main_v103)) (W9 m ρ c (Proc.devRef .tc main_v75))
    (W9 m ρ c (Proc.devRef .tc main_v12)) (W9 m ρ c (Proc.devRef .tc main_v104)) = _
  rw [agg3 m ρ c, feat3_9 m ρ c, dsq_9 m ρ c, bias3 m ρ c]
  exact Cert.Gcn.Stages.combine3 _ _ _ _ _ _ _ _
theorem out3_11 : W11 m ρ c (Proc.devRef .tc main_v105) = val_main_v124 (F := Ideal) (arg m c main_arg0) (arg m c main_arg1) (arg m c main_arg2) (arg m c main_arg3) (arg m c main_arg4) (arg m c main_arg5) (arg m c main_arg6) (arg m c main_arg7) := (v105_11 m ρ c).trans (out3 m ρ c)

/-! ## The two dense stages -/

theorem bias4 : W11 m ρ c (Proc.devRef .tc main_v106) = shapeCast S1x64 (arg m c main_arg9) shapeCasts_S64_S1x64 := by
  refine (dense1_bias (W10 m ρ c)).trans ?_
  rw [argAt_10 m ρ c main_arg9 isArg9]

/-- Region 6: the first dense stage. -/
theorem dense1 : W12 m ρ c (Proc.devRef .tc main_v107) = val_main_v129 (F := Ideal) (arg m c main_arg0) (arg m c main_arg1) (arg m c main_arg2) (arg m c main_arg3) (arg m c main_arg4) (arg m c main_arg5) (arg m c main_arg6) (arg m c main_arg7) (arg m c main_arg8) (arg m c main_arg9) := by
  refine (W12_arr m ρ c 3).trans ((Region6.array (V11 m ρ) c).trans ?_)
  show Region6.dense (W11 m ρ c (Proc.devRef .tc main_v105)) (W11 m ρ c (Proc.devRef .tc main_arg8))
    (W11 m ρ c (Proc.devRef .tc main_v106)) = _
  rw [out3_11 m ρ c, argAt_11 m ρ c main_arg8 isArg8, bias4 m ρ c]
  exact Cert.Gcn.Stages.dense1 _ _ _ _ _ _ _ _ _ _
theorem dense1_13 : W13 m ρ c (Proc.devRef .tc main_v107) = val_main_v129 (F := Ideal) (arg m c main_arg0) (arg m c main_arg1) (arg m c main_arg2) (arg m c main_arg3) (arg m c main_arg4) (arg m c main_arg5) (arg m c main_arg6) (arg m c main_arg7) (arg m c main_arg8) (arg m c main_arg9) :=
  (v107_13 m ρ c).trans (dense1 m ρ c)

theorem bias5 : W13 m ρ c (Proc.devRef .tc main_v108) = shapeCast S1x64 (arg m c main_arg11) shapeCasts_S64_S1x64 := by
  refine (dense2_bias (W12 m ρ c)).trans ?_
  rw [argAt_12 m ρ c main_arg11 isArg11]

/-- Region 7, the result: the reference's last stage of the twelve arguments. -/
theorem result : W14 m ρ c (Proc.devRef .tc main_v109) = val_main_v133 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (W14_arr m ρ c 3).trans ((Region7.array (V13 m ρ) c).trans ?_)
  show Region7.dense (W13 m ρ c (Proc.devRef .tc main_v107)) (W13 m ρ c (Proc.devRef .tc main_arg10))
    (W13 m ρ c (Proc.devRef .tc main_v108)) = _
  rw [dense1_13 m ρ c, argAt_13 m ρ c main_arg10 isArg10, bias5 m ρ c]
  exact Cert.Gcn.Stages.dense2 _ _ _ _ _ _ _ _ _ _ _ _

end Cert.KernelIdeal.Chain

end
-- ==== Proof.Result.lean ====
/-
  The idealized kernel's run, with its result named: every weakly fair execution terminates with the result buffer
  holding the reference's last stage function of the twelve argument arrays as launched, and the argument arrays
  unchanged.  It is the run to the last boundary, the result buffer read off that boundary's contents through the
  chain of regions and stretches, each argument read back to the launch memory.
-/
import proofs.«175292_j50723563765964_1_alg».proof.Proof.LastBoundary
import proofs.«175292_j50723563765964_1_alg».proof.Proof.Chain

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run : θ_run (defs (F := Ideal)) (onTc (τ := τ) (main (F := Ideal))) ⟨m, fun _ => 0, ρ⟩ (fun r => ∀ c : Dev nD,
      r.2.mem ((c.tc : Thread nD τ).loc main_v109)
        = Cert.ReferenceIdeal.Read.val_main_v133 (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v109 (by decide))).trans (Chain.result m ρ c),
     (h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c)⟩)
    (LastBoundary.run m ρ)

end Cert.KernelIdeal.Result

end
-- ==== Proof.lean ====
/-
  A three-layer graph convolution network followed by two dense stages, as a tiled kernel program against its plain
  reference, over 100000 nodes with 64 features and 1000000 edges.

  Both programs compute, from the edge list, the inverse root degrees `dinv = rsqrt (1 + number of edges into the
  node)`; then three times `h = x · W`, the aggregate `agg(n) = Σ over edges e into n of h(source e) · dinv(source e) ·
  dinv(n)`, and `x' = max (agg + h · dinv² + b) 0`; then `max (x · fw1 + fb1) 0` and `x · fw2 + fb2`.  The kernel program
  runs the five products and the three combine steps as eight kernel regions, each over ten row blocks of 10000 nodes,
  with the operands of a product cut to bf16 and accumulated from zero, and leaves the gathers, the scatter sums and
  the inverse root degrees to the same host operations the reference uses.

  At the ideal values a change of float format is the identity and a product accumulated from zero is the plain sum
  of products, so every region's output array is ONE whole-array function of the arrays the region is entered with:
  the host's matrix product (regions 0, 2, 4), the combine step over the aggregate, the features, the column of squared
  inverse degrees and the bias row (regions 1, 3, 5), the product with the bias row added, cut below at 0 or not
  (regions 6, 7).  Entry by entry these are the reference's own operations — its `dot_general`, and its sums, products
  and maxima over vectors spread with `broadcast_in_dim` where the kernel spreads a column and a row inside its body.
  The host operations between the regions are the reference's, applied to equal arrays.  So the two results are the
  same function of the twelve arguments, with no law of the extended reals beyond the operations themselves, and the
  precondition (finite inputs) is never opened.

  The three frames: the kernel program's two are its frame certificate at the two instances; the reference's is its
  run with the result dropped.  The idealization rewrote nothing, so the preservation claim is trivial.
-/
import proofs.«175292_j50723563765964_1_alg».proof.Defs
import proofs.«175292_j50723563765964_1_alg».proof.Proof.Gen.Kernel
import proofs.«175292_j50723563765964_1_alg».proof.Proof.Gen.Kernel.Skeleton
import proofs.«175292_j50723563765964_1_alg».proof.Proof.Gen.Kernel.Launch
import proofs.«175292_j50723563765964_1_alg».proof.Proof.Gen.Kernel.Points
import proofs.«175292_j50723563765964_1_alg».proof.Proof.Gen.Kernel.Frame
import proofs.«175292_j50723563765964_1_alg».proof.Proof.Gen.KernelIdeal
import proofs.«175292_j50723563765964_1_alg».proof.Proof.Gen.KernelIdeal.Skeleton
import proofs.«175292_j50723563765964_1_alg».proof.Proof.Gen.KernelIdeal.Launch
import proofs.«175292_j50723563765964_1_alg».proof.Proof.Gen.KernelIdeal.Points
import proofs.«175292_j50723563765964_1_alg».proof.Proof.Gen.KernelIdeal.Frame
import proofs.«175292_j50723563765964_1_alg».proof.Proof.Gen.ReferenceIdeal
import proofs.«175292_j50723563765964_1_alg».proof.Proof.Gen.Pre_finite_inputs
import proofs.«175292_j50723563765964_1_alg».proof.Proof.Gen.ReferenceIdeal.Run
import proofs.«175292_j50723563765964_1_alg».proof.Proof.Gen.ReferenceIdeal.Read
import proofs.«175292_j50723563765964_1_alg».proof.Proof.Result
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage function of the
    arguments: the kernel program by its chain of regions and stretches, the reference by its run. -/
theorem algebraic : Cert.algebraic_KernelIdeal_ReferenceIdeal := by
  intro m ρ m' ρ' _ hagree
  refine ⟨fun c => Cert.ReferenceIdeal.Read.val_main_v133 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v133_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
